-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S2048x64 : Shape := ⟨2, ![2048, 64]⟩
abbrev S2048 : Shape := ⟨1, ![2048]⟩
abbrev S2048x2048 : Shape := ⟨2, ![2048, 2048]⟩
abbrev S3x2048 : Shape := ⟨2, ![3, 2048]⟩
abbrev S3 : Shape := ⟨1, ![3]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S3x2048 : S_.BroadcastsInDim S3x2048 (![] : Fin 0 → Fin S3x2048.rank)
  reducesTo_S3x2048_S_d0_1 : S3x2048.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S2048x2048 .f32) (main_arg8 : FVec F S2048 .f32) (main_arg9 : FVec F S3x2048 .f32) (main_arg10 : FVec F S3 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S3x2048 .f32 := Host.absf main_arg9
  let main_cst_16 : FVec F S_ .f32 := constant S_ .f32 0x7F800000#32
  let main_v45 : FVec F S3x2048 .f32 := broadcastInDim S3x2048 ![] bcast_S_S3x2048 main_cst_16
  let main_v46 : IVec S3x2048 1 := cmpf .olt main_v44 main_v45
  let main_c_17 : IVec S_ 1 := constantI S_ 1 1#1
  let main_v47 : IVec S_ 1 := (fun x v => Host.reduce IntOp.andi x v reducesTo_S3x2048_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S3x2048 .f32) (main_arg10 : FVec F S3 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x64 .f32) (main_arg1 : FVec F S2048x64 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S3x2048 .f32) (main_arg10 : FVec F S3 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S32768x64 : Shape := ⟨2, ![32768, 64]⟩
abbrev S2048x64 : Shape := ⟨2, ![2048, 64]⟩
abbrev S2048 : Shape := ⟨1, ![2048]⟩
abbrev S2048x2048 : Shape := ⟨2, ![2048, 2048]⟩
abbrev S3x2048 : Shape := ⟨2, ![3, 2048]⟩
abbrev S3 : Shape := ⟨1, ![3]⟩
abbrev S_ : Shape := ⟨0, ![]⟩
abbrev S64x2048 : Shape := ⟨2, ![64, 2048]⟩
abbrev S2048x128 : Shape := ⟨2, ![2048, 128]⟩
abbrev S2048x3 : Shape := ⟨2, ![2048, 3]⟩
abbrev S1 : Shape := ⟨1, ![1]⟩
abbrev S1x128 : Shape := ⟨2, ![1, 128]⟩
abbrev S1x3 : Shape := ⟨2, ![1, 3]⟩
abbrev S1x2048 : Shape := ⟨2, ![1, 2048]⟩
abbrev S32768x128 : Shape := ⟨2, ![32768, 128]⟩
abbrev S256x64 : Shape := ⟨2, ![256, 64]⟩
abbrev S256x128 : Shape := ⟨2, ![256, 128]⟩
abbrev S256x2048 : Shape := ⟨2, ![256, 2048]⟩
abbrev S256x256 : Shape := ⟨2, ![256, 256]⟩
abbrev S1x256 : Shape := ⟨2, ![1, 256]⟩
abbrev S32768x3 : Shape := ⟨2, ![32768, 3]⟩

abbrev nBuf : Space → Nat
  | .hbm => 63
  | .vmem => 15
  | .smem => 0
  | _ => 0

abbrev bufTy : (tb : Table) → Fin (tcTables nBuf tb) → BufTy
  | .hbm, ⟨0, _⟩ => ⟨S32768x64, .f32⟩
  | .hbm, ⟨1, _⟩ => ⟨S2048x64, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S3x2048, .f32⟩
  | .hbm, ⟨10, _⟩ => ⟨S3, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S64x2048, .f32⟩
  | .hbm, ⟨36, _⟩ => ⟨S64x2048, .bf16⟩
  | .hbm, ⟨37, _⟩ => ⟨S2048x2048, .f32⟩
  | .hbm, ⟨38, _⟩ => ⟨S2048x2048, .bf16⟩
  | .hbm, ⟨39, _⟩ => ⟨S2048x2048, .f32⟩
  | .hbm, ⟨40, _⟩ => ⟨S2048x2048, .bf16⟩
  | .hbm, ⟨41, _⟩ => ⟨S2048x2048, .f32⟩
  | .hbm, ⟨42, _⟩ => ⟨S2048x2048, .bf16⟩
  | .hbm, ⟨43, _⟩ => ⟨S_, .f32⟩
  | .hbm, ⟨44, _⟩ => ⟨S2048x128, .f32⟩
  | .hbm, ⟨45, _⟩ => ⟨S2048x3, .f32⟩
  | .hbm, ⟨46, _⟩ => ⟨S_, .i32⟩
  | .hbm, ⟨47, _⟩ => ⟨S1, .i32⟩
  | .hbm, ⟨48, _⟩ => ⟨S2048x128, .f32⟩
  | .hbm, ⟨49, _⟩ => ⟨S2048x128, .bf16⟩
  | .hbm, ⟨50, _⟩ => ⟨S_, .f32⟩
  | .hbm, ⟨51, _⟩ => ⟨S1x128, .f32⟩
  | .hbm, ⟨52, _⟩ => ⟨S1x3, .f32⟩
  | .hbm, ⟨53, _⟩ => ⟨S_, .i32⟩
  | .hbm, ⟨54, _⟩ => ⟨S1, .i32⟩
  | .hbm, ⟨55, _⟩ => ⟨S1x128, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S32768x64, .bf16⟩
  | .hbm, ⟨61, _⟩ => ⟨S32768x128, .f32⟩
  | .hbm, ⟨62, _⟩ => ⟨S32768x3, .f32⟩
  | .local _ .vmem, ⟨0, _⟩ => ⟨S256x64, .bf16⟩
  | .local _ .vmem, ⟨1, _⟩ => ⟨S256x64, .bf16⟩
  | .local _ .vmem, ⟨2, _⟩ => ⟨S64x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S2048x128, .bf16⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x2048, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v1 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_v2 : Ref sig .tc := ⟨.hbm, 25, rfl⟩
abbrev main_cst_0 : Ref sig .tc := ⟨.hbm, 26, rfl⟩
abbrev main_call2_v0 : Ref sig .tc := ⟨.hbm, 27, rfl⟩
abbrev main_call2_v1 : Ref sig .tc := ⟨.hbm, 28, rfl⟩
abbrev main_v3 : Ref sig .tc := ⟨.hbm, 29, rfl⟩
abbrev main_cst_1 : Ref sig .tc := ⟨.hbm, 30, rfl⟩
abbrev main_call3_v0 : Ref sig .tc := ⟨.hbm, 31, rfl⟩
abbrev main_call3_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_c_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_c_5 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S2048x2048 : S_.BroadcastsInDim S2048x2048 (![] : Fin 0 → Fin S2048x2048.rank)
  transposes_S2048x64_S64x2048_1_0 : S2048x64.Transposes [1, 0] S64x2048
  bitsLt_bf16_f32 : FTy.bits .bf16 < FTy.bits .f32
  transposes_S2048x2048_S2048x2048_1_0 : S2048x2048.Transposes [1, 0] S2048x2048
  bcast_S_S2048x128 : S_.BroadcastsInDim S2048x128 (![] : Fin 0 → Fin S2048x128.rank)
  transposes_S3x2048_S2048x3_1_0 : S3x2048.Transposes [1, 0] S2048x3
  bcast_S_S1 : S_.BroadcastsInDim S1 (![] : Fin 0 → Fin S1.rank)
  bcast_S_S1x128 : S_.BroadcastsInDim S1x128 (![] : Fin 0 → Fin S1x128.rank)
  shapeCasts_S3_S1x3 : S3.ShapeCasts S1x3
  shapeCasts_S2048_S1x2048 : S2048.ShapeCasts S1x2048
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x256 : S256x2048.Slices ![0, 0] S256x256
  inb_S2048x2048_S256x256_0_0 : ∀ a, (![0, 0] : Fin 2 → Nat) a + S256x256.size a ≤ S2048x2048.size a
  h_S256x256 : 0 < S256x256.numel
  shapeCasts_S256x256_S256x256 : S256x256.ShapeCasts S256x256
  slices_S256x2048_o0_256_S256x256 : S256x2048.Slices ![0, 256] S256x256
  inb_S2048x2048_S256x256_256_0 : ∀ a, (![256, 0] : Fin 2 → Nat) a + S256x256.size a ≤ S2048x2048.size a
  slices_S256x2048_o0_512_S256x256 : S256x2048.Slices ![0, 512] S256x256
  inb_S2048x2048_S256x256_512_0 : ∀ a, (![512, 0] : Fin 2 → Nat) a + S256x256.size a ≤ S2048x2048.size a
  slices_S256x2048_o0_768_S256x256 : S256x2048.Slices ![0, 768] S256x256
  inb_S2048x2048_S256x256_768_0 : ∀ a, (![768, 0] : Fin 2 → Nat) a + S256x256.size a ≤ S2048x2048.size a
  slices_S256x2048_o0_1024_S256x256 : S256x2048.Slices ![0, 1024] S256x256
  inb_S2048x2048_S256x256_1024_0 : ∀ a, (![1024, 0] : Fin 2 → Nat) a + S256x256.size a ≤ S2048x2048.size a
  slices_S256x2048_o0_1280_S256x256 : S256x2048.Slices ![0, 1280] S256x256
  inb_S2048x2048_S256x256_1280_0 : ∀ a, (![1280, 0] : Fin 2 → Nat) a + S256x256.size a ≤ S2048x2048.size a
  slices_S256x2048_o0_1536_S256x256 : S256x2048.Slices ![0, 1536] S256x256
  inb_S2048x2048_S256x256_1536_0 : ∀ a, (![1536, 0] : Fin 2 → Nat) a + S256x256.size a ≤ S2048x2048.size a
  slices_S256x2048_o0_1792_S256x256 : S256x2048.Slices ![0, 1792] S256x256
  inb_S2048x2048_S256x256_1792_0 : ∀ a, (![1792, 0] : Fin 2 → Nat) a + S256x256.size a ≤ S2048x2048.size a
  inb_S1x2048_S1x256_0_0 : ∀ a, (![0, 0] : Fin 2 → Nat) a + S1x256.size a ≤ S1x2048.size a
  h_S1x256 : 0 < S1x256.numel
  shapeCasts_S1x256_S1x256 : S1x256.ShapeCasts S1x256
  broadcasts_S1x256_S256x256 : S1x256.Broadcasts S256x256
  inb_S256x2048_S256x256_0_0 : ∀ a, (![0, 0] : Fin 2 → Nat) a + S256x256.size a ≤ S256x2048.size a
  inb_S2048x2048_S256x256_256_256 : ∀ a, (![256, 256] : Fin 2 → Nat) a + S256x256.size a ≤ S2048x2048.size a
  inb_S2048x2048_S256x256_512_256 : ∀ a, (![512, 256] : Fin 2 → Nat) a + S256x256.size a ≤ S2048x2048.size a
  inb_S2048x2048_S256x256_768_256 : ∀ a, (![768, 256] : Fin 2 → Nat) a + S256x256.size a ≤ S2048x2048.size a
  inb_S2048x2048_S256x256_1024_256 : ∀ a, (![1024, 256] : Fin 2 → Nat) a + S256x256.size a ≤ S2048x2048.size a
  inb_S2048x2048_S256x256_1280_256 : ∀ a, (![1280, 256] : Fin 2 → Nat) a + S256x256.size a ≤ S2048x2048.size a
  inb_S2048x2048_S256x256_1536_256 : ∀ a, (![1536, 256] : Fin 2 → Nat) a + S256x256.size a ≤ S2048x2048.size a
  inb_S2048x2048_S256x256_1792_256 : ∀ a, (![1792, 256] : Fin 2 → Nat) a + S256x256.size a ≤ S2048x2048.size a
  inb_S1x2048_S1x256_0_256 : ∀ a, (![0, 256] : Fin 2 → Nat) a + S1x256.size a ≤ S1x2048.size a
  inb_S256x2048_S256x256_0_256 : ∀ a, (![0, 256] : Fin 2 → Nat) a + S256x256.size a ≤ S256x2048.size a
  inb_S2048x2048_S256x256_512_512 : ∀ a, (![512, 512] : Fin 2 → Nat) a + S256x256.size a ≤ S2048x2048.size a
  inb_S2048x2048_S256x256_768_512 : ∀ a, (![768, 512] : Fin 2 → Nat) a + S256x256.size a ≤ S2048x2048.size a
  inb_S2048x2048_S256x256_1024_512 : ∀ a, (![1024, 512] : Fin 2 → Nat) a + S256x256.size a ≤ S2048x2048.size a
  inb_S2048x2048_S256x256_1280_512 : ∀ a, (![1280, 512] : Fin 2 → Nat) a + S256x256.size a ≤ S2048x2048.size a
  inb_S2048x2048_S256x256_1536_512 : ∀ a, (![1536, 512] : Fin 2 → Nat) a + S256x256.size a ≤ S2048x2048.size a
  inb_S2048x2048_S256x256_1792_512 : ∀ a, (![1792, 512] : Fin 2 → Nat) a + S256x256.size a ≤ S2048x2048.size a
  inb_S1x2048_S1x256_0_512 : ∀ a, (![0, 512] : Fin 2 → Nat) a + S1x256.size a ≤ S1x2048.size a
  inb_S256x2048_S256x256_0_512 : ∀ a, (![0, 512] : Fin 2 → Nat) a + S256x256.size a ≤ S256x2048.size a
  inb_S2048x2048_S256x256_768_768 : ∀ a, (![768, 768] : Fin 2 → Nat) a + S256x256.size a ≤ S2048x2048.size a
  inb_S2048x2048_S256x256_1024_768 : ∀ a, (![1024, 768] : Fin 2 → Nat) a + S256x256.size a ≤ S2048x2048.size a
  inb_S2048x2048_S256x256_1280_768 : ∀ a, (![1280, 768] : Fin 2 → Nat) a + S256x256.size a ≤ S2048x2048.size a
  inb_S2048x2048_S256x256_1536_768 : ∀ a, (![1536, 768] : Fin 2 → Nat) a + S256x256.size a ≤ S2048x2048.size a
  inb_S2048x2048_S256x256_1792_768 : ∀ a, (![1792, 768] : Fin 2 → Nat) a + S256x256.size a ≤ S2048x2048.size a
  inb_S1x2048_S1x256_0_768 : ∀ a, (![0, 768] : Fin 2 → Nat) a + S1x256.size a ≤ S1x2048.size a
  inb_S256x2048_S256x256_0_768 : ∀ a, (![0, 768] : Fin 2 → Nat) a + S256x256.size a ≤ S256x2048.size a
  inb_S2048x2048_S256x256_1024_1024 : ∀ a, (![1024, 1024] : Fin 2 → Nat) a + S256x256.size a ≤ S2048x2048.size a
  inb_S2048x2048_S256x256_1280_1024 : ∀ a, (![1280, 1024] : Fin 2 → Nat) a + S256x256.size a ≤ S2048x2048.size a
  inb_S2048x2048_S256x256_1536_1024 : ∀ a, (![1536, 1024] : Fin 2 → Nat) a + S256x256.size a ≤ S2048x2048.size a
  inb_S2048x2048_S256x256_1792_1024 : ∀ a, (![1792, 1024] : Fin 2 → Nat) a + S256x256.size a ≤ S2048x2048.size a
  inb_S1x2048_S1x256_0_1024 : ∀ a, (![0, 1024] : Fin 2 → Nat) a + S1x256.size a ≤ S1x2048.size a
  inb_S256x2048_S256x256_0_1024 : ∀ a, (![0, 1024] : Fin 2 → Nat) a + S256x256.size a ≤ S256x2048.size a
  inb_S2048x2048_S256x256_1280_1280 : ∀ a, (![1280, 1280] : Fin 2 → Nat) a + S256x256.size a ≤ S2048x2048.size a
  inb_S2048x2048_S256x256_1536_1280 : ∀ a, (![1536, 1280] : Fin 2 → Nat) a + S256x256.size a ≤ S2048x2048.size a
  inb_S2048x2048_S256x256_1792_1280 : ∀ a, (![1792, 1280] : Fin 2 → Nat) a + S256x256.size a ≤ S2048x2048.size a
  inb_S1x2048_S1x256_0_1280 : ∀ a, (![0, 1280] : Fin 2 → Nat) a + S1x256.size a ≤ S1x2048.size a
  inb_S256x2048_S256x256_0_1280 : ∀ a, (![0, 1280] : Fin 2 → Nat) a + S256x256.size a ≤ S256x2048.size a
  inb_S2048x2048_S256x256_1536_1536 : ∀ a, (![1536, 1536] : Fin 2 → Nat) a + S256x256.size a ≤ S2048x2048.size a
  inb_S2048x2048_S256x256_1792_1536 : ∀ a, (![1792, 1536] : Fin 2 → Nat) a + S256x256.size a ≤ S2048x2048.size a
  inb_S1x2048_S1x256_0_1536 : ∀ a, (![0, 1536] : Fin 2 → Nat) a + S1x256.size a ≤ S1x2048.size a
  inb_S256x2048_S256x256_0_1536 : ∀ a, (![0, 1536] : Fin 2 → Nat) a + S256x256.size a ≤ S256x2048.size a
  inb_S2048x2048_S256x256_1792_1792 : ∀ a, (![1792, 1792] : Fin 2 → Nat) a + S256x256.size a ≤ S2048x2048.size a
  inb_S1x2048_S1x256_0_1792 : ∀ a, (![0, 1792] : Fin 2 → Nat) a + S1x256.size a ≤ S1x2048.size a
  inb_S256x2048_S256x256_0_1792 : ∀ a, (![0, 1792] : Fin 2 → Nat) a + S256x256.size a ≤ S256x2048.size a
  inb_S256x2048_S256x2048_0_0 : ∀ a, (![0, 0] : Fin 2 → Nat) a + S256x2048.size a ≤ S256x2048.size a
  h_S256x2048 : 0 < S256x2048.numel
  inb_S2048x2048_S256x256_0_256 : ∀ a, (![0, 256] : Fin 2 → Nat) a + S256x256.size a ≤ S2048x2048.size a
  inb_S2048x2048_S256x256_0_512 : ∀ a, (![0, 512] : Fin 2 → Nat) a + S256x256.size a ≤ S2048x2048.size a
  inb_S2048x2048_S256x256_256_512 : ∀ a, (![256, 512] : Fin 2 → Nat) a + S256x256.size a ≤ S2048x2048.size a
  inb_S2048x2048_S256x256_0_768 : ∀ a, (![0, 768] : Fin 2 → Nat) a + S256x256.size a ≤ S2048x2048.size a
  inb_S2048x2048_S256x256_256_768 : ∀ a, (![256, 768] : Fin 2 → Nat) a + S256x256.size a ≤ S2048x2048.size a
  inb_S2048x2048_S256x256_512_768 : ∀ a, (![512, 768] : Fin 2 → Nat) a + S256x256.size a ≤ S2048x2048.size a
  inb_S2048x2048_S256x256_0_1024 : ∀ a, (![0, 1024] : Fin 2 → Nat) a + S256x256.size a ≤ S2048x2048.size a
  inb_S2048x2048_S256x256_256_1024 : ∀ a, (![256, 1024] : Fin 2 → Nat) a + S256x256.size a ≤ S2048x2048.size a
  inb_S2048x2048_S256x256_512_1024 : ∀ a, (![512, 1024] : Fin 2 → Nat) a + S256x256.size a ≤ S2048x2048.size a
  inb_S2048x2048_S256x256_768_1024 : ∀ a, (![768, 1024] : Fin 2 → Nat) a + S256x256.size a ≤ S2048x2048.size a
  inb_S2048x2048_S256x256_0_1280 : ∀ a, (![0, 1280] : Fin 2 → Nat) a + S256x256.size a ≤ S2048x2048.size a
  inb_S2048x2048_S256x256_256_1280 : ∀ a, (![256, 1280] : Fin 2 → Nat) a + S256x256.size a ≤ S2048x2048.size a
  inb_S2048x2048_S256x256_512_1280 : ∀ a, (![512, 1280] : Fin 2 → Nat) a + S256x256.size a ≤ S2048x2048.size a
  inb_S2048x2048_S256x256_0_1536 : ∀ a, (![0, 1536] : Fin 2 → Nat) a + S256x256.size a ≤ S2048x2048.size a
  inb_S2048x2048_S256x256_256_1536 : ∀ a, (![256, 1536] : Fin 2 → Nat) a + S256x256.size a ≤ S2048x2048.size a
  inb_S2048x2048_S256x256_0_1792 : ∀ a, (![0, 1792] : Fin 2 → Nat) a + S256x256.size a ≤ S2048x2048.size a
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  slices_S32768x128_S32768x3_0_0 : S32768x128.Slices ![0, 0] S32768x3
  scatter_S2048x128_S1_S2048x3_01_n_1_0_wf : ScatterDims.WF S2048x128 S1 S2048x3 [0, 1] [] [1] 0
  scatter_S1x128_S1_S1x3_01_n_1_0_wf : ScatterDims.WF S1x128 S1 S1x3 [0, 1] [] [1] 0
  dot_S256x64_S64x2048_S256x2048_1_0_0_1_n_n_wf : DotDims.WF S256x64 S64x2048 S256x2048 [1] [0] [0] [1] [] []
  dot_S256x256_S256x256_S256x256_1_0_0_1_n_n_wf : DotDims.WF S256x256 S256x256 S256x256 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S32768x64.size a
  hwx0_0 : ∀ i : grid0.Coords, EltTy.bits .bf16 = 32 ∨ (Rect.block (s := S32768x64) S256x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .bf16 = 32 ∨ (Rect.block (s := S64x2048) S64x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S2048x128.size a
  hwx0_9 : ∀ i : grid0.Coords, EltTy.bits .bf16 = 32 ∨ (Rect.block (s := S2048x128) S2048x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S32768x128.size a
  hwx0_11 : ∀ i : grid0.Coords, EltTy.bits .f32 = 32 ∨ (Rect.block (s := S32768x128) S256x128.size (cc0_transform_11 i) (hinb0_11 i)).WholeWords (EltTy.packing .f32)

variable [Facts₀]

def scatter_S2048x128_S1_S2048x3_01_n_1_0 : ScatterDims S2048x128 S1 S2048x3 where
  updateWindowDims := [0, 1]
  insertedWindowDims := []
  scatterDimsToOperandDims := [1]
  indexVectorDim := 0
  wf := scatter_S2048x128_S1_S2048x3_01_n_1_0_wf
def scatter_S1x128_S1_S1x3_01_n_1_0 : ScatterDims S1x128 S1 S1x3 where
  updateWindowDims := [0, 1]
  insertedWindowDims := []
  scatterDimsToOperandDims := [1]
  indexVectorDim := 0
  wf := scatter_S1x128_S1_S1x3_01_n_1_0_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_v27) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S2048x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x64 : Shape := ⟨2, ![32768, 64]⟩
abbrev S2048x64 : Shape := ⟨2, ![2048, 64]⟩
abbrev S2048 : Shape := ⟨1, ![2048]⟩
abbrev S2048x2048 : Shape := ⟨2, ![2048, 2048]⟩
abbrev S3x2048 : Shape := ⟨2, ![3, 2048]⟩
abbrev S3 : Shape := ⟨1, ![3]⟩
abbrev S64x2048 : Shape := ⟨2, ![64, 2048]⟩
abbrev S32768x2048 : Shape := ⟨2, ![32768, 2048]⟩
abbrev S1x2048 : Shape := ⟨2, ![1, 2048]⟩
abbrev S_ : Shape := ⟨0, ![]⟩
abbrev S2048x3 : Shape := ⟨2, ![2048, 3]⟩
abbrev S32768x3 : Shape := ⟨2, ![32768, 3]⟩
abbrev S1x3 : Shape := ⟨2, ![1, 3]⟩

abbrev nBuf : Space → Nat
  | .hbm => 88
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S2048x64, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S3x2048, .f32⟩
  | .hbm, ⟨10, _⟩ => ⟨S3, .f32⟩
  | .hbm, ⟨11, _⟩ => ⟨S64x2048, .f32⟩
  | .hbm, ⟨12, _⟩ => ⟨S32768x2048, .f32⟩
  | .hbm, ⟨13, _⟩ => ⟨S1x2048, .f32⟩
  | .hbm, ⟨14, _⟩ => ⟨S32768x2048, .f32⟩
  | .hbm, ⟨15, _⟩ => ⟨S32768x2048, .f32⟩
  | .hbm, ⟨16, _⟩ => ⟨S_, .i1⟩
  | .hbm, ⟨17, _⟩ => ⟨S2048x2048, .i1⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .i1⟩
  | .hbm, ⟨25, _⟩ => ⟨S2048x2048, .i1⟩
  | .hbm, ⟨26, _⟩ => ⟨S2048x2048, .i1⟩
  | .hbm, ⟨27, _⟩ => ⟨S_, .f32⟩
  | .hbm, ⟨28, _⟩ => ⟨S32768x2048, .f32⟩
  | .hbm, ⟨29, _⟩ => ⟨S32768x2048, .i1⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .i1⟩
  | .hbm, ⟨46, _⟩ => ⟨S_, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S_, .f32⟩
  | .hbm, ⟨51, _⟩ => ⟨S_, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S32768x2048, .f32⟩
  | .hbm, ⟨56, _⟩ => ⟨S1x2048, .f32⟩
  | .hbm, ⟨57, _⟩ => ⟨S32768x2048, .f32⟩
  | .hbm, ⟨58, _⟩ => ⟨S32768x2048, .f32⟩
  | .hbm, ⟨59, _⟩ => ⟨S32768x2048, .f32⟩
  | .hbm, ⟨60, _⟩ => ⟨S_, .f32⟩
  | .hbm, ⟨61, _⟩ => ⟨S32768x2048, .f32⟩
  | .hbm, ⟨62, _⟩ => ⟨S32768x2048, .i1⟩
  | .hbm, ⟨63, _⟩ => ⟨S_, .f32⟩
  | .hbm, ⟨64, _⟩ => ⟨S32768x2048, .f32⟩
  | .hbm, ⟨65, _⟩ => ⟨S32768x2048, .f32⟩
  | .hbm, ⟨66, _⟩ => ⟨S32768x2048, .f32⟩
  | .hbm, ⟨67, _⟩ => ⟨S_, .f32⟩
  | .hbm, ⟨68, _⟩ => ⟨S_, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S32768x2048, .f32⟩
  | .hbm, ⟨73, _⟩ => ⟨S1x2048, .f32⟩
  | .hbm, ⟨74, _⟩ => ⟨S32768x2048, .f32⟩
  | .hbm, ⟨75, _⟩ => ⟨S32768x2048, .f32⟩
  | .hbm, ⟨76, _⟩ => ⟨S_, .f32⟩
  | .hbm, ⟨77, _⟩ => ⟨S32768x2048, .f32⟩
  | .hbm, ⟨78, _⟩ => ⟨S32768x2048, .i1⟩
  | .hbm, ⟨79, _⟩ => ⟨S_, .f32⟩
  | .hbm, ⟨80, _⟩ => ⟨S32768x2048, .f32⟩
  | .hbm, ⟨81, _⟩ => ⟨S32768x2048, .f32⟩
  | .hbm, ⟨82, _⟩ => ⟨S32768x2048, .f32⟩
  | .hbm, ⟨83, _⟩ => ⟨S2048x3, .f32⟩
  | .hbm, ⟨84, _⟩ => ⟨S32768x3, .f32⟩
  | .hbm, ⟨85, _⟩ => ⟨S1x3, .f32⟩
  | .hbm, ⟨86, _⟩ => ⟨S32768x3, .f32⟩
  | .hbm, ⟨87, _⟩ => ⟨S32768x3, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_call2_v0 : Ref sig .tc := ⟨.hbm, 35, rfl⟩
abbrev main_call2_v1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_call4_v0 : Ref sig .tc := ⟨.hbm, 51, rfl⟩
abbrev main_call4_v1 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_call6_v0 : Ref sig .tc := ⟨.hbm, 68, rfl⟩
abbrev main_call6_v1 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_8 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]

class Facts₀ : Prop where
  transposes_S2048x64_S64x2048_1_0 : S2048x64.Transposes [1, 0] S64x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S2048x2048 : S_.BroadcastsInDim S2048x2048 (![] : Fin 0 → Fin S2048x2048.rank)
  bcast_S_S32768x2048 : S_.BroadcastsInDim S32768x2048 (![] : Fin 0 → Fin S32768x2048.rank)
  transposes_S2048x2048_S2048x2048_1_0 : S2048x2048.Transposes [1, 0] S2048x2048
  transposes_S3x2048_S2048x3_1_0 : S3x2048.Transposes [1, 0] S2048x3
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  dot_S32768x64_S64x2048_S32768x2048_1_0_0_1_n_n_wf : DotDims.WF S32768x64 S64x2048 S32768x2048 [1] [0] [0] [1] [] []
  dot_S32768x2048_S2048x2048_S32768x2048_1_0_0_1_n_n_wf : DotDims.WF S32768x2048 S2048x2048 S32768x2048 [1] [0] [0] [1] [] []
  dot_S32768x2048_S2048x3_S32768x3_1_0_0_1_n_n_wf : DotDims.WF S32768x2048 S2048x3 S32768x3 [1] [0] [0] [1] [] []

variable [Facts₀]

def dot_S32768x64_S64x2048_S32768x2048_1_0_0_1_n_n : DotDims S32768x64 S64x2048 S32768x2048 where
  lhsContracting := [1]
  rhsContracting := [0]
  lhsNonContracting := [0]
  rhsNonContracting := [1]
  lhsBatch := []
  rhsBatch := []
  wf := dot_S32768x64_S64x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x2048_S2048x3_S32768x3_1_0_0_1_n_n : DotDims S32768x2048 S2048x3 S32768x3 where
  lhsContracting := [1]
  rhsContracting := [0]
  lhsNonContracting := [0]
  rhsNonContracting := [1]
  lhsBatch := []
  rhsBatch := []
  wf := dot_S32768x2048_S2048x3_S32768x3_1_0_0_1_n_n_wf

class Facts : Prop extends Facts₀ where

variable [Facts]
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibBlockSum.lean ====
/-
  Sums over a range cut into equal blocks.

  A sum over `n * b` consecutive indices is the sum, over the `n` blocks, of the sum over the `b` indices of each
  block: index `q` of block `j` is the index `q + b * j` of the whole range, and every index of the whole range
  is of this form exactly once.  The same at the sizes 16 blocks of 512, written with a range of block numbers;
  and a sum over the first `n + 1` block numbers is the sum over the first `n` plus the last term.
-/
import Mathlib.Algebra.BigOperators.Fin
import Mathlib.Algebra.BigOperators.Group.Finset.Basic
import Mathlib.Data.Fintype.BigOperators
import Mathlib.Logic.Equiv.Fin.Basic

open scoped BigOperators

namespace Cert.LibBlockSum

/-- Index `q` of block `j`, among `n` blocks of `b` indices each, is the index `q + b * j` of the whole range. -/
theorem finProd_val {n b : ℕ} (j : Fin n) (q : Fin b) : (finProdFinEquiv (j, q)).val = q.val + b * j.val := rfl

/-- The sum over the blocks of the sums over each block is the sum over the whole range of `n * b` indices. -/
theorem sum_blocks {M : Type*} [AddCommMonoid M] {n b : ℕ} (f : Fin (n * b) → M) :
    ∑ j : Fin n, ∑ q : Fin b, f (finProdFinEquiv (j, q)) = ∑ i, f i :=
  (Fintype.sum_prod_type' fun (j : Fin n) (q : Fin b) => f (finProdFinEquiv (j, q))).symm.trans
    (Equiv.sum_comp finProdFinEquiv f)

/-- The same for 8192 indices cut into 16 blocks of 512, the block number running over a range of naturals:
    index `q` of block `j` is `512 * j + q`, which is below 8192 for every block number below 16. -/
theorem sum_blocks_8192 {M : Type*} [AddCommMonoid M] (f : Fin 8192 → M) :
    ∑ j ∈ Finset.range 16, ∑ q : Fin 512, (if h : 512 * j + q.val < 8192 then f ⟨512 * j + q.val, h⟩ else 0)
      = ∑ i, f i := by
  refine Eq.trans ?_ (sum_blocks (n := 16) (b := 512) f)
  rw [Finset.sum_range fun j => ∑ q : Fin 512, (if h : 512 * j + q.val < 8192 then f ⟨512 * j + q.val, h⟩ else 0)]
  refine Finset.sum_congr rfl fun j _ => Finset.sum_congr rfl fun q _ => ?_
  have hlt : 512 * j.val + q.val < 8192 := by have := j.isLt; have := q.isLt; omega
  rw [dif_pos hlt]
  exact congrArg f (Fin.ext (by show 512 * j.val + q.val = q.val + 512 * j.val; omega))

/-- A sum over the first `n + 1` naturals is the sum over the first `n` plus the term at `n`. -/
theorem sum_range_step {M : Type*} [AddCommMonoid M] (g : ℕ → M) (n : ℕ) :
    ∑ j ∈ Finset.range (n + 1), g j = (∑ j ∈ Finset.range n, g j) + g n :=
  Finset.sum_range_succ g n

end Cert.LibBlockSum
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«164725_j36610301231756_2_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.Spec.lean ====
/-
  The arithmetic the kernel and the reference share, on the extended reals.

  Both programs compute a five-layer perceptron row by row: an affine layer into 2048 features, three affine layers
  2048 → 2048 and an affine layer out, each but the first applied to the leaky ramp
  lk x = x for x > 0 and 0.01·x otherwise (the constant being the one binary word both programs spell).
  This module holds that function (`net`), the fact that a block of rows of it is the function of the same rows, the
  re-indexing that moves a reversal of the contracted coordinate from the activations to the weights, and the cut of
  a sum over 2048 columns into eight sums over 256 columns each, in which a chunk whose weights vanish drops out.
-/
import Idealize.ShloMosaic.PureOps.Ideal.Laws
import Idealize.ShloMosaic.Lib.ValueIdx
import proofs.«164725_j36610301231756_2_alg».proof.Proof.LibBlockSum
import proofs.«164725_j36610301231756_2_alg».proof.Proof.LibLinearLayer

noncomputable section

namespace Cert.Spec

open Idealize.ShloMosaic Idealize.ShloMosaic.ValueIdx Cert.LibLinearLayer

/-! ## Columns taken 256 at a time -/

/-- Column `off + c` of a row of 2048, for `c` inside a chunk of 256 columns (reduced mod 2048, so that the
    definition owes no bound; every use is at an offset whose chunk fits). -/
def colAt (off : ℕ) (c : Fin 256) : Fin 2048 := ⟨(off + c.val) % 2048, Nat.mod_lt _ (by norm_num)⟩

theorem colAt_val {off : ℕ} (h : off + 256 ≤ 2048) (c : Fin 256) : (colAt off c).val = off + c.val := by
  have := c.isLt
  show (off + c.val) % 2048 = off + c.val
  exact Nat.mod_eq_of_lt (by omega)

/-- A sum over 2048 columns is the sum of the eight sums over its chunks of 256 columns. -/
theorem sum2048 {M : Type*} [AddCommMonoid M] (f : Fin 2048 → M) :
    ∑ k, f k = (∑ c, f (colAt 0 c)) + (∑ c, f (colAt 256 c)) + (∑ c, f (colAt 512 c)) + (∑ c, f (colAt 768 c))
      + (∑ c, f (colAt 1024 c)) + (∑ c, f (colAt 1280 c)) + (∑ c, f (colAt 1536 c)) + (∑ c, f (colAt 1792 c)) := by
  refine (Cert.LibBlockSum.sum_blocks (n := 8) (b := 256) f).symm.trans ?_
  have e : ∀ (j : Fin 8) (o : ℕ), o = 256 * j.val → ∀ q : Fin 256,
      (finProdFinEquiv (j, q) : Fin (8 * 256)) = colAt o q := by
    intro j o ho q
    apply Fin.ext
    rw [Cert.LibBlockSum.finProd_val]
    have := q.isLt; have := j.isLt
    rw [colAt_val (by omega)]; omega
  rw [Fin.sum_univ_eight]
  simp only [e 0 0 rfl, e 1 256 rfl, e 2 512 rfl, e 3 768 rfl, e 4 1024 rfl, e 5 1280 rfl, e 6 1536 rfl, e 7 1792 rfl]

/-- A chunk whose weights all vanish contributes nothing: 0 · x = 0 for every extended real x. -/
theorem chunk_zero (a w : Fin 256 → EReal) (h : ∀ c, w c = 0) : ∑ c, a c * w c = 0 :=
  Finset.sum_eq_zero fun c _ => by rw [h c, mul_zero]

/-! ## The leaky ramp -/

/-- x for x > 0, and the shared constant times x otherwise. -/
def lk (x : EReal) : EReal :=
  Scalar.select (FloatOps.cmpf (F := Ideal) (φ := .f32) .ogt x (Ideal.ofBits .f32 0x00000000#32)) x
    (Ideal.ofBits .f32 0x3C23D70A#32 * x)

/-- The ramp applied to every entry of an array. -/
def act {m n : ℕ} (X : FVec Ideal ⟨2, ![m, n]⟩ .f32) : FVec Ideal ⟨2, ![m, n]⟩ .f32 := fun i => lk (X i)

theorem act_apply {m n : ℕ} (X : FVec Ideal ⟨2, ![m, n]⟩ .f32) (i : (⟨2, ![m, n]⟩ : Shape).Idx) : act X i = lk (X i) := rfl

/-! ## The perceptron -/

/-- The five affine layers with the ramp between them, on `m` rows, with `n4` outputs. -/
def net {m n4 : ℕ} (P : FVec Ideal ⟨2, ![m, 64]⟩ .f32) (W0 : FVec Ideal ⟨2, ![64, 2048]⟩ .f32) (b0 : Fin 2048 → EReal)
    (W1 : FVec Ideal ⟨2, ![2048, 2048]⟩ .f32) (b1 : Fin 2048 → EReal)
    (W2 : FVec Ideal ⟨2, ![2048, 2048]⟩ .f32) (b2 : Fin 2048 → EReal)
    (W3 : FVec Ideal ⟨2, ![2048, 2048]⟩ .f32) (b3 : Fin 2048 → EReal)
    (W4 : FVec Ideal ⟨2, ![2048, n4]⟩ .f32) (b4 : Fin n4 → EReal) : FVec Ideal ⟨2, ![m, n4]⟩ .f32 :=
  lin (act (lin (act (lin (act (lin (act (lin P W0 b0)) W1 b1)) W2 b2)) W3 b3)) W4 b4

/-- Row `a` of the perceptron on a block of rows is row `A` of the perceptron on the whole array, when row `a` of the
    block is row `A` of the array. -/
theorem net_rows {M r n4 : ℕ} (P : FVec Ideal ⟨2, ![M, 64]⟩ .f32) (Pb : FVec Ideal ⟨2, ![r, 64]⟩ .f32)
    (W0 : FVec Ideal ⟨2, ![64, 2048]⟩ .f32) (b0 : Fin 2048 → EReal)
    (W1 : FVec Ideal ⟨2, ![2048, 2048]⟩ .f32) (b1 : Fin 2048 → EReal)
    (W2 : FVec Ideal ⟨2, ![2048, 2048]⟩ .f32) (b2 : Fin 2048 → EReal)
    (W3 : FVec Ideal ⟨2, ![2048, 2048]⟩ .f32) (b3 : Fin 2048 → EReal)
    (W4 : FVec Ideal ⟨2, ![2048, n4]⟩ .f32) (b4 : Fin n4 → EReal) (a : Fin r) (A : Fin M) (q : Fin n4)
    (hx : ∀ c : Fin 64, Pb (ix2 a c) = P (ix2 A c)) :
    net Pb W0 b0 W1 b1 W2 b2 W3 b3 W4 b4 (ix2 a q) = net P W0 b0 W1 b1 W2 b2 W3 b3 W4 b4 (ix2 A q) := by
  unfold net
  refine lin_rows _ _ W4 b4 a A q fun c => congrArg lk ?_
  refine lin_rows _ _ W3 b3 a A c fun c => congrArg lk ?_
  refine lin_rows _ _ W2 b2 a A c fun c => congrArg lk ?_
  refine lin_rows _ _ W1 b1 a A c fun c => congrArg lk ?_
  exact lin_rows _ _ W0 b0 a A c hx

/-- The output layer only reads the output columns it is asked for: with weights and bias that agree on the first
    `n` of `n'` columns, the two perceptrons agree there. -/
theorem net_cols {m n n' : ℕ} (P : FVec Ideal ⟨2, ![m, 64]⟩ .f32)
    (W0 : FVec Ideal ⟨2, ![64, 2048]⟩ .f32) (b0 : Fin 2048 → EReal)
    (W1 : FVec Ideal ⟨2, ![2048, 2048]⟩ .f32) (b1 : Fin 2048 → EReal)
    (W2 : FVec Ideal ⟨2, ![2048, 2048]⟩ .f32) (b2 : Fin 2048 → EReal)
    (W3 : FVec Ideal ⟨2, ![2048, 2048]⟩ .f32) (b3 : Fin 2048 → EReal)
    (W4 : FVec Ideal ⟨2, ![2048, n]⟩ .f32) (b4 : Fin n → EReal)
    (W4' : FVec Ideal ⟨2, ![2048, n']⟩ .f32) (b4' : Fin n' → EReal) (a : Fin m) (q : Fin n) (q' : Fin n')
    (hW : ∀ k : Fin 2048, W4' (ix2 k q') = W4 (ix2 k q)) (hb : b4' q' = b4 q) :
    net P W0 b0 W1 b1 W2 b2 W3 b3 W4' b4' (ix2 a q') = net P W0 b0 W1 b1 W2 b2 W3 b3 W4 b4 (ix2 a q) := by
  unfold net
  rw [lin_apply, lin_apply, hb]
  congr 1
  exact Finset.sum_congr rfl fun k _ => by rw [hW k]

/-! ## A reversal of the contracted coordinate -/

/-- Reversing the columns of the activations is reversing the rows of the weights: the sum over the contracted
    coordinate is re-indexed by the reversal, which is its own inverse. -/
theorem lin_rev {m k n : ℕ} (Y : FVec Ideal ⟨2, ![m, k]⟩ .f32) (W : FVec Ideal ⟨2, ![k, n]⟩ .f32) (β : Fin n → EReal) :
    lin (fun i : (⟨2, ![m, k]⟩ : Shape).Idx => Y (ix2 (show Fin m from i 0) (show Fin k from i 1).rev)) W β
      = lin Y (fun i : (⟨2, ![k, n]⟩ : Shape).Idx => W (ix2 (show Fin k from i 0).rev (show Fin n from i 1))) β := by
  funext j
  obtain ⟨a, q, rfl⟩ : ∃ (a : Fin m) (q : Fin n), j = ix2 a q := ⟨j 0, j 1, eq_ix2 j⟩
  rw [lin_apply, lin_apply]
  congr 1
  refine Eq.trans ?_ (Equiv.sum_comp Fin.revPerm fun c : Fin k => Y (ix2 a c) * W (ix2 c.rev q))
  refine Finset.sum_congr rfl fun c _ => ?_
  show Y (ix2 a c.rev) * W (ix2 c q) = Y (ix2 a c.rev) * W (ix2 c.rev.rev q)
  rw [Fin.rev_rev]

end Cert.Spec

end
-- ==== Proof.Blocks.lean ====
/-
  The kernel's 256-column chunks, read at an index, at the ideal values.

  The kernel holds a block of 256 rows. A hidden layer's weights are a 2048 × 2048 array it loads 256 × 256 entries at
  a time; the activations are a 256 × 2048 array it slices 256 columns at a time; a chunk's product is a plain matrix
  product into a zero accumulator. Read at row p and column q of column block `o₂`, the chunk at `o₁` is
      ∑ c, A(p, o₁ + c) · W(o₁ + c, o₂ + q),
  and the bias row's chunk at `o₂`, repeated down the rows, is β(0, o₂ + q). The block of the scratch array that a
  column block's store writes is placed at columns o₂ … o₂ + 255.
-/
import proofs.«164725_j36610301231756_2_alg».proof.KernelIdeal
import Idealize.ShloMosaic.Lib.Pipeline.Value
import Idealize.ShloMosaic.Lib.ValueLayout
import Idealize.ShloMosaic.Lib.WholeRead
import proofs.«164725_j36610301231756_2_alg».proof.Proof.LibMatmulPlain
import proofs.«164725_j36610301231756_2_alg».proof.Proof.Spec

noncomputable section

namespace Cert.Blocks

open Idealize.ShloMosaic Idealize.ShloMosaic.TcCoe Idealize.ShloMosaic.ValueIdx Cert.KernelIdeal Cert.Spec

variable {sig : RefSig} {κ : Kind} {sp : Space} [Cert.KernelIdeal.Facts₀]

/-- Entry (c, q) of the 256 × 256 rectangle at (o₁, o₂) of a 2048 × 2048 array is the array's entry
    (o₁ + c, o₂ + q). -/
theorem idx_wblock (o1 o2 : ℕ) (inb : ∀ a, (![o1, o2] : Fin 2 → ℕ) a + S256x256.size a ≤ S2048x2048.size a) (c q : Fin 256) :
    (Rect.unit (s := S2048x2048) ![o1, o2] S256x256.size inb).toLoadRect.idx (ix2 c q) = ix2 (colAt o1 c) (colAt o2 q) := by
  have h1 : o1 + 256 ≤ 2048 := inb 0
  have h2 : o2 + 256 ≤ 2048 := inb 1
  funext a
  match a with
  | ⟨0, _⟩ => exact Fin.ext (by show o1 + 1 * c.val = (colAt o1 c).val; rw [colAt_val h1]; omega)
  | ⟨1, _⟩ => exact Fin.ext (by show o2 + 1 * q.val = (colAt o2 q).val; rw [colAt_val h2]; omega)

/-- A load of that rectangle from a whole staging buffer holding X reads X there. -/
theorem wblock_apply (m : Memref sig κ sp S2048x2048 .bf16) (h : m.IsWhole) (X : Vec Ideal S2048x2048 .bf16) (o1 o2 : ℕ)
    (inb : ∀ a, (![o1, o2] : Fin 2 → ℕ) a + S256x256.size a ≤ S2048x2048.size a) (c q : Fin 256) :
    View.readAt (Elt Ideal) m.view (Rect.unit (s := S2048x2048) ![o1, o2] S256x256.size inb).toLoadRect (h.unread X) (ix2 c q)
      = X (ix2 (colAt o1 c) (colAt o2 q)) :=
  (h.readAt_unread X _ _).trans (congrArg X (idx_wblock o1 o2 inb c q))

/-- The same as one function of the rectangle's index. -/
theorem wblock_fun (m : Memref sig κ sp S2048x2048 .bf16) (h : m.IsWhole) (X : Vec Ideal S2048x2048 .bf16) (o1 o2 : ℕ)
    (inb : ∀ a, (![o1, o2] : Fin 2 → ℕ) a + S256x256.size a ≤ S2048x2048.size a) :
    View.readAt (Elt Ideal) m.view (Rect.unit (s := S2048x2048) ![o1, o2] S256x256.size inb).toLoadRect (h.unread X)
      = fun i => X (ix2 (colAt o1 (i 0)) (colAt o2 (i 1))) := by
  funext i
  obtain ⟨c, q, rfl⟩ : ∃ (c q : Fin 256), i = ix2 c q := ⟨i 0, i 1, eq_ix2 i⟩
  exact wblock_apply m h X o1 o2 inb c q

/-- The chunk of 256 columns of the activations at `off`, times a 256 × 256 tile, into the zero accumulator. -/
theorem chunk_dot (off : ℕ) (A : FVec Ideal S256x2048 .bf16) (Wb : FVec Ideal S256x256 .bf16)
    (hsl : S256x2048.Slices ![0, off] S256x256) (p q : Fin 256) :
    matmul dot_S256x256_S256x256_S256x256_1_0_0_1_n_n none (extractStridedSlice S256x256 ![0, off] A hsl)
        Wb (constant (F := Ideal) S256x256 .f32 0x00000000#32) (ix2 p q)
      = ∑ c : Fin 256, A (ix2 p (colAt off c)) * Wb (ix2 c q) := by
  have hoff : off + 256 ≤ 2048 := hsl.2 1
  have key := Cert.LibMatmulPlain.matmul_plain_zero_apply (m := 256) (k := 256) (n := 256) (φ₁ := .bf16) (φ₂ := .bf16) none
    (extractStridedSlice S256x256 ![0, off] A hsl) Wb p q
  refine Eq.trans key ?_
  refine Finset.sum_congr rfl fun c _ => ?_
  congr 1
  refine extractStridedSlice_apply _ _ _ _ _ fun a => ?_
  match a with
  | ⟨0, _⟩ => show p.val = 0 + p.val; omega
  | ⟨1, _⟩ => show (colAt off c).val = off + c.val; exact colAt_val hoff c

/-- The chunk at `o` of a bias row held in a whole staging buffer, repeated down 256 rows. -/
theorem bias_apply (m : Memref sig κ sp S1x2048 .f32) (h : m.IsWhole) (X : Vec Ideal S1x2048 .f32) (o : ℕ)
    (inb : ∀ a, (![0, o] : Fin 2 → ℕ) a + S1x256.size a ≤ S1x2048.size a)
    (hb : S1x256.Broadcasts S256x256) (p q : Fin 256) :
    broadcastTo S256x256
        (View.readAt (Elt Ideal) m.view (Rect.unit (s := S1x2048) ![0, o] S1x256.size inb).toLoadRect (h.unread X)) hb (ix2 p q)
      = X (ix2 (0 : Fin 1) (colAt o q)) := by
  have h2 : o + 256 ≤ 2048 := inb 1
  have key : ∀ v : Vec Ideal S1x256 .f32,
      broadcastTo S256x256 v hb (ix2 p q) = v (ix2 (0 : Fin 1) q) := by
    intro v
    refine broadcastTo_apply _ hb (ix2 p q) (ix2 (0 : Fin 1) q) fun a => ?_
    match a with
    | ⟨0, _⟩ => rfl
    | ⟨1, _⟩ => rfl
  refine (key _).trans ?_
  · refine (h.readAt_unread X _ _).trans (congrArg X ?_)
    funext a
    match a with
    | ⟨0, _⟩ => exact Fin.ext (by show 0 + 1 * 0 = 0; omega)
    | ⟨1, _⟩ => exact Fin.ext (by show o + 1 * q.val = (colAt o q).val; rw [colAt_val h2]; omega)

/-- A load of a whole staging buffer holding X reads X. -/
theorem load_whole {S : Shape} {e : EltTy} (m : Memref sig κ sp S e) (h : m.IsWhole) (X : S.Idx → Elt Ideal e)
    (off : Fin S.rank → ℕ) (hoff : off = fun _ => 0) (inb : ∀ a, off a + S.size a ≤ S.size a) :
    View.readAt (Elt Ideal) m.view (Rect.unit off S.size inb).toLoadRect (h.unread X) = X := by
  rw [View.readAt_eq_ld, h.read_unread]
  exact View.ld_unit_zero hoff inb X

/-- Entry (p, q) of the 256 × 256 rectangle at columns `o` of the 256 × 2048 scratch array is its entry (p, o + q). -/
theorem emb_colblock (o : ℕ) (inb : ∀ a, (![0, o] : Fin 2 → ℕ) a + S256x256.size a ≤ S256x2048.size a) (p q : Fin 256) :
    (Rect.unit (s := S256x2048) ![0, o] S256x256.size inb).emb (ix2 p q) = ix2 p (colAt o q) := by
  have h2 : o + 256 ≤ 2048 := inb 1
  funext a
  match a with
  | ⟨0, _⟩ => exact Fin.ext (by show 0 + 1 * p.val = p.val; omega)
  | ⟨1, _⟩ => exact Fin.ext (by show o + 1 * q.val = (colAt o q).val; rw [colAt_val h2]; omega)

end Cert.Blocks

end
-- ==== Proof.LibCanonPrefix.lean ====
/-
  What a buffer holds after a list of stores, when the newest stores alone cover it.

  The canonical contents after a list of written pieces (newest first) read, at an index, the newest piece that
  contains it. If the first pieces of the list are each a block of one function G of the buffer's index, and they
  cover the index, the contents there are G, whatever the older pieces wrote: a scratch buffer that is overwritten
  whole, block by block, several times over holds what its last round of stores left.
-/
import Idealize.ShloMosaic.Lib.Pipeline.Value

namespace Cert.LibCanonPrefix

open Idealize.ShloMosaic Idealize.ShloMosaic.View

variable {S : Shape} {e : EltTy} {Val : EltTy → Type}

/-- The newest pieces `L₁`, each a block of `G`, decide the contents at every index one of them contains; the older
    pieces `L₂` are never consulted there. -/
theorem canon_append_of_pieces [∀ e, Nonempty (Val e)] (G : S.Idx → Val e) (L₂ : List (Piece Val S e)) :
    ∀ (L₁ : List (Piece Val S e)) (_ : ∀ p ∈ L₁, ∀ x : p.1.shape.Idx, p.2 x = G (p.1.emb x)) (y : S.Idx)
      (_ : ∃ p ∈ L₁, y ∈ p.1.set), View.canon (L₁ ++ L₂) y = G y
  | [], _, _, hy => by obtain ⟨p, hp, _⟩ := hy; simp at hp
  | p :: L₁, hL, y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_append_of_pieces G L₂ L₁ (fun q hq => hL q (by simp [hq])) y ?_
      obtain ⟨q, hq, hyq⟩ := hy
      rcases List.mem_cons.mp hq with rfl | hq'
      · exact absurd hyq hm
      · exact ⟨q, hq', hyq⟩

end Cert.LibCanonPrefix
-- ==== Proof.Body.lean ====
/-
  The kernel's body at one grid point, at the ideal values: the block of 256 output rows it leaves is the perceptron of
  the block of 256 input rows.

  The body computes the first affine layer and the ramp on its 256 rows; then, three times over, it writes a hidden
  layer into a 256 × 2048 scratch array one block of 256 columns at a time — a column block is the sum of the chunk
  products over the row blocks of the weights that are not structurally zero, plus the bias chunk — and reads the
  scratch back whole and applies the ramp; and it ends with the output layer. A column block's partial sum is the
  full sum over the 2048 contracted columns because the skipped chunks multiply weights that vanish, and 0 · x = 0 on
  every extended real. The scratch array holds what the newest eight stores left, whatever was stored before.
-/
import proofs.«164725_j36610301231756_2_alg».proof.Proof.Gen.KernelIdeal.Frame
import proofs.«164725_j36610301231756_2_alg».proof.Proof.Blocks
import proofs.«164725_j36610301231756_2_alg».proof.Proof.LibCanonPrefix

set_option maxRecDepth 65536

noncomputable section

namespace Cert.KernelIdeal.Body

open Idealize.ShloMosaic Idealize.ShloMosaic.TcCoe Idealize.ShloMosaic.ValueIdx
open Cert.KernelIdeal Cert.KernelIdeal.Gen Cert.Spec Cert.Blocks Cert.LibLinearLayer

/-! ## The structural zeros of the weights, as the kernel holds them (contracted coordinate first) -/

/-- Zero wherever the contracted coordinate is below the output coordinate. -/
def LowerZero (X : Vec Ideal S2048x2048 .bf16) : Prop := ∀ k n : Fin 2048, k.val < n.val → X (ix2 k n) = 0

/-- Zero wherever the two coordinates add up to more than 2047. -/
def AntiZero (X : Vec Ideal S2048x2048 .bf16) : Prop := ∀ k n : Fin 2048, 2047 < k.val + n.val → X (ix2 k n) = 0

theorem lower_chunk {X : Vec Ideal S2048x2048 .bf16} (hX : LowerZero X) (o1 o2 : ℕ) (h : o1 + 256 ≤ o2) (h2 : o2 + 256 ≤ 2048)
    (a : Fin 256 → EReal) (q : Fin 256) : ∑ c, a c * X (ix2 (colAt o1 c) (colAt o2 q)) = 0 :=
  chunk_zero a _ fun c => hX _ _ (by rw [colAt_val (by omega), colAt_val h2]; have := c.isLt; omega)

theorem anti_chunk {X : Vec Ideal S2048x2048 .bf16} (hX : AntiZero X) (o1 o2 : ℕ) (h : 2048 ≤ o1 + o2) (h1 : o1 + 256 ≤ 2048)
    (h2 : o2 + 256 ≤ 2048) (a : Fin 256 → EReal) (q : Fin 256) : ∑ c, a c * X (ix2 (colAt o1 c) (colAt o2 q)) = 0 :=
  chunk_zero a _ fun c => hX _ _ (by rw [colAt_val h1, colAt_val h2]; omega)

/-! ## The pieces of the body that are whole-array operations -/

/-- The ramp as the body spells it (compare with zero, scale, select, and a change of format that is the identity). -/
theorem pay23_eq (X : Vec Ideal S256x2048 .f32) : k0_pay23 (F := Ideal) X = act X := rfl

theorem pay47_eq (X : Vec Ideal S256x2048 .f32) : k0_pay47 (F := Ideal) X = act X := rfl

/-- The first layer and its ramp. -/
theorem pay1_eq (v0 : Vec Ideal S256x64 .bf16) (v2 : Vec Ideal S64x2048 .bf16) (v5 : Vec Ideal S1x2048 .f32) :
    k0_pay1 (F := Ideal) v0 v2 v5 = act (lin v0 v2 fun q => v5 (ix2 (0 : Fin 1) q)) := by
  funext j
  obtain ⟨p, n, rfl⟩ : ∃ (p : Fin 256) (n : Fin 2048), j = ix2 p n := ⟨j 0, j 1, eq_ix2 j⟩
  have hx : addf (matmul dot_S256x64_S64x2048_S256x2048_1_0_0_1_n_n none
        (shapeCast S256x64 v0 shapeCasts_S256x64_S256x64 : FVec Ideal S256x64 .bf16)
        (shapeCast S64x2048 v2 shapeCasts_S64x2048_S64x2048 : FVec Ideal S64x2048 .bf16) (constant (F := Ideal) S256x2048 .f32 0x00000000#32))
      (broadcastTo S256x2048 (shapeCast S1x2048 v5 shapeCasts_S1x2048_S1x2048 : FVec Ideal S1x2048 .f32) broadcasts_S1x2048_S256x2048) (ix2 p n)
      = lin v0 v2 (fun q => v5 (ix2 (0 : Fin 1) q)) (ix2 p n) := by
    rw [addf_apply, lin_apply, shapeCast_self, shapeCast_self, shapeCast_self]
    congr 1
    · exact Cert.LibMatmulPlain.matmul_plain_zero_apply (m := 256) (k := 64) (n := 2048) (φ₁ := .bf16) (φ₂ := .bf16) none v0 v2 p n
    · exact broadcastTo_1b_ab_apply _ _ _ _
  exact congrArg lk hx

/-- The ramp and the output layer. -/
theorem pay70_eq (S : Vec Ideal S256x2048 .f32) (W : Vec Ideal S2048x128 .bf16) (B : Vec Ideal S1x128 .f32) :
    k0_pay70 (F := Ideal) S W B = lin (act S) W fun q => B (ix2 (0 : Fin 1) q) := by
  funext j
  obtain ⟨p, n, rfl⟩ : ∃ (p : Fin 256) (n : Fin 128), j = ix2 p n := ⟨j 0, j 1, eq_ix2 j⟩
  show addf (matmul dot_S256x2048_S2048x128_S256x128_1_0_0_1_n_n none (k0_pay23 (F := Ideal) S)
        (shapeCast S2048x128 W shapeCasts_S2048x128_S2048x128 : FVec Ideal S2048x128 .bf16) (constant (F := Ideal) S256x128 .f32 0x00000000#32))
      (broadcastTo S256x128 (shapeCast S1x128 B shapeCasts_S1x128_S1x128 : FVec Ideal S1x128 .f32) broadcasts_S1x128_S256x128) (ix2 p n) = _
  rw [addf_apply, lin_apply, shapeCast_self, shapeCast_self, pay23_eq]
  congr 1
  · exact Cert.LibMatmulPlain.matmul_plain_zero_apply (m := 256) (k := 2048) (n := 128) (φ₁ := .bf16) (φ₂ := .bf16) none (act S) W p n
  · exact broadcastTo_1b_ab_apply _ _ _ _

theorem hz00 : (![0, 0] : Fin 2 → ℕ) = fun _ => 0 := by funext a; fin_cases a <;> rfl

variable (c : Dev nD) (arg1 : Memref sig .tc .vmem S256x64 .bf16) (harg1 : arg1.IsWhole) (arg2 : Memref sig .tc .vmem S64x2048 .bf16) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S2048x128 .bf16) (harg10 : arg10.IsWhole) (arg11 : Memref sig .tc .vmem S1x128 .f32) (harg11 : arg11.IsWhole) (arg12 : Memref sig .tc .vmem S256x128 .f32) (harg12 : arg12.IsWhole) (arg13 : Memref sig .tc .vmem S256x2048 .f32) (harg13 : arg13.IsWhole)
  (x0 : Vec Ideal S256x64 .bf16) (x1 : Vec Ideal S64x2048 .bf16) (x2 : Vec Ideal S1x2048 .f32) (x3 : Vec Ideal S2048x2048 .bf16) (x4 : Vec Ideal S1x2048 .f32) (x5 : Vec Ideal S2048x2048 .bf16) (x6 : Vec Ideal S1x2048 .f32) (x7 : Vec Ideal S2048x2048 .bf16) (x8 : Vec Ideal S1x2048 .f32) (x9 : Vec Ideal S2048x128 .bf16) (x10 : Vec Ideal S1x128 .f32)

/-! ## The three hidden layers, as the scratch array holds them -/

set_option maxHeartbeats 1600000 in
theorem scratch1 (hz3 : LowerZero x3) :
    kernelRun0_A.sl.v243 (F := Ideal) c arg1 harg1 arg2 harg2 arg3 harg3 arg4 harg4 arg5 harg5 arg13 x0 x1 x2 x3 x4
      = lin (kernelRun0_A.sl.r (F := Ideal) c arg1 harg1 arg2 harg2 arg3 harg3 x0 x1 x2) x3 (fun n => x4 (ix2 (0 : Fin 1) n)) := by
  unfold kernelRun0_A.sl.v243
  rw [View.readCov_eq_canon']
  refine Eq.trans (View.ld_unit_zero (S := S256x2048) hz00 inb_S256x2048_S256x2048_0_0 _) ?_
  funext y
  unfold kernelRun0_A.sl.HS0_8
  refine View.canon_apply_of_pieces (S := S256x2048) (Val := Elt Ideal) (e := .f32) (lin (kernelRun0_A.sl.r (F := Ideal) c arg1 harg1 arg2 harg2 arg3 harg3 x0 x1 x2) x3 (fun n => x4 (ix2 (0 : Fin 1) n))) _ ?_ y
    (View.cover_of_tiledL (s := S256x2048) _ S256x256.size (by sl_kernel_rfl) y)
  intro pc hpc
  simp only [List.mem_cons, List.not_mem_nil, or_false] at hpc
  rcases hpc with rfl | rfl | rfl | rfl | rfl | rfl | rfl | rfl
  all_goals
    intro x
    obtain ⟨p', q, rfl⟩ : ∃ (p' q : Fin 256), x = ix2 p' q := ⟨x 0, x 1, eq_ix2 x⟩
    rw [emb_colblock, lin_apply, sum2048]
    simp (disch := decide) only [lower_chunk hz3, zero_add, add_zero, kernelRun0_A.sl.cst_58, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_5, kernelRun0_A.sl.r_6, kernelRun0_A.sl.r_7, kernelRun0_A.sl.r_8, kernelRun0_A.sl.r_9, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69,
      addf_apply, shapeCast_self, chunk_dot]
    rw [bias_apply arg5 harg5 x4]
    repeat rw [wblock_fun arg4 harg4 x3]

set_option maxHeartbeats 1600000 in
theorem scratch2 (hz5 : LowerZero x5) :
    kernelRun0_A.sl.v478 (F := Ideal) c arg1 harg1 arg2 harg2 arg3 harg3 arg4 harg4 arg5 harg5 arg6 harg6 arg7 harg7 arg13 x0 x1 x2 x3 x4 x5 x6
      = lin (kernelRun0_A.sl.r_15 (F := Ideal) c arg1 harg1 arg2 harg2 arg3 harg3 arg4 harg4 arg5 harg5 arg13 x0 x1 x2 x3 x4) x5 (fun n => x6 (ix2 (0 : Fin 1) n)) := by
  unfold kernelRun0_A.sl.v478
  rw [View.readCov_eq_canon']
  refine Eq.trans (View.ld_unit_zero (S := S256x2048) hz00 inb_S256x2048_S256x2048_0_0 _) ?_
  funext y
  unfold kernelRun0_A.sl.HS0_16
  show View.canon ([_, _, _, _, _, _, _, _] ++ _) y = _
  refine Cert.LibCanonPrefix.canon_append_of_pieces (S := S256x2048) (Val := Elt Ideal) (e := .f32) (lin (kernelRun0_A.sl.r_15 (F := Ideal) c arg1 harg1 arg2 harg2 arg3 harg3 arg4 harg4 arg5 harg5 arg13 x0 x1 x2 x3 x4) x5 (fun n => x6 (ix2 (0 : Fin 1) n))) _ _ ?_ y
    (View.cover_of_tiledL (s := S256x2048) _ S256x256.size (by sl_kernel_rfl) y)
  intro pc hpc
  simp only [List.mem_cons, List.not_mem_nil, or_false] at hpc
  rcases hpc with rfl | rfl | rfl | rfl | rfl | rfl | rfl | rfl
  all_goals
    intro x
    obtain ⟨p', q, rfl⟩ : ∃ (p' q : Fin 256), x = ix2 p' q := ⟨x 0, x 1, eq_ix2 x⟩
    rw [emb_colblock, lin_apply, sum2048]
    simp (disch := decide) only [lower_chunk hz5, zero_add, add_zero, kernelRun0_A.sl.cst_58, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_5, kernelRun0_A.sl.r_6, kernelRun0_A.sl.r_7, kernelRun0_A.sl.r_8, kernelRun0_A.sl.r_9, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69,
      addf_apply, shapeCast_self, chunk_dot]
    rw [bias_apply arg7 harg7 x6]
    repeat rw [wblock_fun arg6 harg6 x5]

set_option maxHeartbeats 1600000 in
theorem scratch3 (hz7 : AntiZero x7) :
    kernelRun0_A.sl.v713 (F := Ideal) c arg1 harg1 arg2 harg2 arg3 harg3 arg4 harg4 arg5 harg5 arg6 harg6 arg7 harg7 arg8 harg8 arg9 harg9 arg13 x0 x1 x2 x3 x4 x5 x6 x7 x8
      = lin (kernelRun0_A.sl.r_31 (F := Ideal) c arg1 harg1 arg2 harg2 arg3 harg3 arg4 harg4 arg5 harg5 arg6 harg6 arg7 harg7 arg13 x0 x1 x2 x3 x4 x5 x6) x7 (fun n => x8 (ix2 (0 : Fin 1) n)) := by
  unfold kernelRun0_A.sl.v713
  rw [View.readCov_eq_canon']
  refine Eq.trans (View.ld_unit_zero (S := S256x2048) hz00 inb_S256x2048_S256x2048_0_0 _) ?_
  funext y
  unfold kernelRun0_A.sl.HS0_24
  show View.canon ([_, _, _, _, _, _, _, _] ++ _) y = _
  refine Cert.LibCanonPrefix.canon_append_of_pieces (S := S256x2048) (Val := Elt Ideal) (e := .f32) (lin (kernelRun0_A.sl.r_31 (F := Ideal) c arg1 harg1 arg2 harg2 arg3 harg3 arg4 harg4 arg5 harg5 arg6 harg6 arg7 harg7 arg13 x0 x1 x2 x3 x4 x5 x6) x7 (fun n => x8 (ix2 (0 : Fin 1) n))) _ _ ?_ y
    (View.cover_of_tiledL (s := S256x2048) _ S256x256.size (by sl_kernel_rfl) y)
  intro pc hpc
  simp only [List.mem_cons, List.not_mem_nil, or_false] at hpc
  rcases hpc with rfl | rfl | rfl | rfl | rfl | rfl | rfl | rfl
  all_goals
    intro x
    obtain ⟨p', q, rfl⟩ : ∃ (p' q : Fin 256), x = ix2 p' q := ⟨x 0, x 1, eq_ix2 x⟩
    rw [emb_colblock, lin_apply, sum2048]
    simp (disch := decide) only [anti_chunk hz7, zero_add, add_zero, kernelRun0_A.sl.cst_58, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_5, kernelRun0_A.sl.r_6, kernelRun0_A.sl.r_7, kernelRun0_A.sl.r_8, kernelRun0_A.sl.r_9, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69,
      addf_apply, shapeCast_self, chunk_dot]
    rw [bias_apply arg9 harg9 x8]
    repeat rw [wblock_fun arg8 harg8 x7]

/-! ## The block the body leaves -/

/-- With the structural zeros of the three hidden weight arrays, the output block is the perceptron of the input block. -/
theorem body_value (i : grid0.Coords) (hz3 : LowerZero x3) (hz5 : LowerZero x5) (hz7 : AntiZero x7) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = net x0 x1 (fun q => x2 (ix2 (0 : Fin 1) q)) x3 (fun q => x4 (ix2 (0 : Fin 1) q)) x5 (fun q => x6 (ix2 (0 : Fin 1) q)) x7 (fun q => x8 (ix2 (0 : Fin 1) q)) x9 (fun q => x10 (ix2 (0 : Fin 1) q)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  rw [View.canon_unit_zero hz00]
  unfold kernelRun0_A.sl.r_48
  rw [pay70_eq, scratch3 c arg1 harg1 arg2 harg2 arg3 harg3 arg4 harg4 arg5 harg5 arg6 harg6 arg7 harg7 arg8 harg8 arg9 harg9 arg13 x0 x1 x2 x3 x4 x5 x6 x7 x8 hz7]
  unfold kernelRun0_A.sl.r_31
  rw [pay47_eq, scratch2 c arg1 harg1 arg2 harg2 arg3 harg3 arg4 harg4 arg5 harg5 arg6 harg6 arg7 harg7 arg13 x0 x1 x2 x3 x4 x5 x6 hz5]
  unfold kernelRun0_A.sl.r_15
  rw [pay23_eq, scratch1 c arg1 harg1 arg2 harg2 arg3 harg3 arg4 harg4 arg5 harg5 arg13 x0 x1 x2 x3 x4 hz3]
  unfold kernelRun0_A.sl.r
  rw [pay1_eq, load_whole arg1 harg1 x0 _ hz00, load_whole arg2 harg2 x1 _ hz00, load_whole arg3 harg3 x2 _ hz00,
    load_whole arg10 harg10 x9 _ hz00, load_whole arg11 harg11 x10 _ hz00]
  rfl

end Cert.KernelIdeal.Body

end
-- ==== Proof.MaskedW.lean ====
/-
  The triangular mask and the masked weights, as the host builds them, and where the masked weights vanish.

  Both programs build the 2048 × 2048 mask by comparing a row counter, less one, with a column counter: entry (i, j)
  is masked off exactly when i − 1 ≥ j, that is when the column is strictly left of the diagonal. The masked weight
  array keeps w where the mask is on and holds the constant 0 elsewhere; so masked(w)(i, j) = 0 for j < i.
-/
import Idealize.ShloMosaic.PureOps.Ideal.Laws
import Idealize.ShloMosaic.Lib.ValueIdx
import Idealize.ShloMosaic.Lib.Affine

noncomputable section

namespace Cert.MaskedW

open Idealize.ShloMosaic Idealize.ShloMosaic.ValueIdx

/-- The 2048 × 2048 shape and the scalar shape. -/
abbrev Sq : Shape := ⟨2, ![2048, 2048]⟩
abbrev Sc : Shape := ⟨0, ![]⟩

theorem hb : Sc.BroadcastsInDim Sq (![] : Fin 0 → Fin Sq.rank) := by decide

/-- The mask: off (0) where row − 1 ≥ column, on (1) elsewhere. -/
def triuMask : IVec Sq 1 :=
  select (cmpi .sge (addi (iotaInDim Sq 32 0) (broadcastInDim Sq ![] hb (constantI Sc 32 4294967295#32))) (iotaInDim Sq 32 1))
    (broadcastInDim Sq ![] hb (constantI Sc 1 0#1)) (broadcastInDim Sq ![] hb (constantI Sc 1 1#1))

/-- The weights where the mask is on, the constant zero elsewhere. -/
def masked (w : FVec Ideal Sq .f32) : FVec Ideal Sq .f32 :=
  select triuMask w (broadcastInDim Sq ![] hb (constant (F := Ideal) Sc .f32 0x00000000#32))

/-- Left of the diagonal the mask is off. -/
theorem triuMask_off (i j : Fin 2048) (h : j.val < i.val) : triuMask (ix2 i j) = 0#1 := by
  have hc : IntOp.cmpi .sge (IntOp.addi (BitVec.ofNat 32 i.val) 4294967295#32) (BitVec.ofNat 32 j.val) = 1#1 := by
    rw [IntOp.cmpi_sge]
    have hi := i.isLt
    have hj := j.isLt
    have e0 : ∀ k : ℕ, k < 2048 → (BitVec.ofNat 32 k).toInt = (k : ℤ) := by
      intro k hk
      rw [BitVec.toInt_eq_toNat_bmod, BitVec.toNat_ofNat, Nat.mod_eq_of_lt (by omega)]
      simp only [Int.bmod]; split_ifs <;> omega
    have e1 : (BitVec.ofNat 32 j.val).toInt = (j.val : ℤ) := e0 _ hj
    have e2 : (IntOp.addi (BitVec.ofNat 32 i.val) 4294967295#32).toInt = (i.val : ℤ) - 1 := by
      show (BitVec.ofNat 32 i.val + 4294967295#32).toInt = _
      rw [BitVec.toInt_add, e0 _ hi, show (4294967295#32 : BitVec 32).toInt = -1 from by decide]
      simp only [Int.bmod]; split_ifs <;> omega
    rw [e1, e2]; omega
  show Scalar.select (IntOp.cmpi .sge (IntOp.addi (BitVec.ofNat 32 i.val) 4294967295#32) (BitVec.ofNat 32 j.val)) (0#1 : BitVec 1) 1#1 = 0#1
  rw [hc]; rfl

/-- Left of the diagonal the masked weights are zero. -/
theorem masked_zero (w : FVec Ideal Sq .f32) (i j : Fin 2048) (h : j.val < i.val) : masked w (ix2 i j) = 0 := by
  show Scalar.select (triuMask (ix2 i j)) (w (ix2 i j)) (Ideal.ofBits .f32 0x00000000#32) = 0
  rw [triuMask_off i j h, select_zero, Ideal.ofBits_zero_f32]

end Cert.MaskedW

end
-- ==== Proof.LibScatterWindow.lean ====
/-
  A window written into an array at column zero, read inside the window.

  The host's scatter with one scatter index, a two-axis window and an update function that returns the update (jax's
  `x.at[:, :n].set(u)` of an m × n update into an m × N array, lowered with the one start index 0 on the column axis)
  is a left fold over the update's entries: entry (a, b) of the update lands on entry (a, 0 + b) of the array. No two
  entries of the update land on the same place, so inside the window the result holds the update.
-/
import Idealize.ShloMosaic.PureOps.ShapeOps
import Idealize.ShloMosaic.Lib.ValueIdx

namespace Cert.LibScatterWindow

open Idealize.ShloMosaic Idealize.ShloMosaic.ValueIdx

/-- A fold of writes: update `n` replaces the entry at `g n` (when there is one) by `val n` and leaves the rest. If exactly
    one update of the list lands on `i₀`, the fold holds its value there. -/
theorem foldl_set_hit {ι β N : Type} [DecidableEq ι] (g : N → Option ι) (val : N → β) (step : (ι → β) → N → (ι → β))
    (hsome : ∀ r n i i', g n = some i → step r n i' = if i' = i then val n else r i')
    (hnone : ∀ r n, g n = none → step r n = r)
    (i₀ : ι) (n₀ : N) (hg : g n₀ = some i₀) :
    ∀ (L : List N) (x : ι → β), n₀ ∈ L → (∀ n ∈ L, g n = some i₀ → n = n₀) → (L.foldl step x) i₀ = val n₀
  | [], _, h, _ => by simp at h
  | n :: L, x, hmem, huniq => by
    rw [List.foldl_cons]
    by_cases hL : n₀ ∈ L
    · exact foldl_set_hit g val step hsome hnone i₀ n₀ hg L _ hL fun k hk => huniq k (List.mem_cons_of_mem _ hk)
    · have hn : n = n₀ := by
        rcases List.mem_cons.mp hmem with h | h
        · exact h.symm
        · exact absurd h hL
      subst hn
      have hmiss : ∀ (L' : List N) (x' : ι → β), (∀ k ∈ L', g k ≠ some i₀) → (L'.foldl step x') i₀ = x' i₀ := by
        intro L'
        induction L' with
        | nil => intro x' _; rfl
        | cons k L' ih =>
          intro x' hk
          rw [List.foldl_cons, ih _ fun k' hk' => hk k' (List.mem_cons_of_mem _ hk')]
          have hkk := hk k List.mem_cons_self
          cases hgk : g k with
          | none => rw [hnone _ _ hgk]
          | some i =>
            rw [hsome _ _ _ _ hgk, if_neg fun (e : i₀ = i) => hkk (by rw [hgk, e])]
      rw [hmiss L _ fun k hk e => hL (by rw [huniq k (List.mem_cons_of_mem _ hk) e] at hk; exact hk)]
      rw [hsome _ _ _ _ hg, if_pos rfl]

variable {α : Type}

/-- The dimension numbers of the window scatter: both update axes are window axes, nothing is inserted, and the one
    start index is the start on the column axis. -/
abbrev dims (m N n : ℕ) (wf : ScatterDims.WF ⟨2, ![m, N]⟩ ⟨1, ![1]⟩ ⟨2, ![m, n]⟩ [0, 1] [] [1] 0) :
    ScatterDims ⟨2, ![m, N]⟩ ⟨1, ![1]⟩ ⟨2, ![m, n]⟩ :=
  { updateWindowDims := [0, 1], insertedWindowDims := [], scatterDimsToOperandDims := [1], indexVectorDim := 0, wf := wf }

/-- With the start index zero, entry (a, b) of the update lands on entry (a, b) of the array. -/
theorem resultIdx_eq {m N n : ℕ} (hn : n ≤ N) (wf : ScatterDims.WF ⟨2, ![m, N]⟩ ⟨1, ![1]⟩ ⟨2, ![m, n]⟩ [0, 1] [] [1] 0)
    (idx : IVec ⟨1, ![1]⟩ 32) (hidx : ∀ k, idx k = 0#32) (a : Fin m) (b : Fin n) :
    (dims m N n wf).resultIdx? (ix2 a b) idx = some (ix2 a ⟨b.val, lt_of_lt_of_le b.isLt hn⟩) := by
  have hs : ∀ ax, (dims m N n wf).start (ix2 a b) idx ax = 0 := by
    intro ax
    unfold ScatterDims.start
    split
    · rw [hidx]; rfl
    · rfl
  have hw0 : (dims m N n wf).window (ix2 a b) 0 = a.val := rfl
  have hw1 : (dims m N n wf).window (ix2 a b) 1 = b.val := rfl
  have hcond : ∀ ax, 0 ≤ (dims m N n wf).start (ix2 a b) idx ax + (dims m N n wf).window (ix2 a b) ax
      ∧ (dims m N n wf).start (ix2 a b) idx ax + (dims m N n wf).window (ix2 a b) ax < (⟨2, ![m, N]⟩ : Shape).size ax := by
    refine Fin.forall_fin_two.2 ⟨?_, ?_⟩
    · rw [hs, hw0]; exact ⟨by omega, by show (0 : ℤ) + (a.val : ℤ) < (m : ℤ); have := a.isLt; omega⟩
    · rw [hs, hw1]; exact ⟨by omega, by show (0 : ℤ) + (b.val : ℤ) < (N : ℤ); have := b.isLt; omega⟩
  unfold ScatterDims.resultIdx?
  rw [dif_pos hcond]
  congr 1
  funext ax
  revert ax
  refine Fin.forall_fin_two.2 ⟨?_, ?_⟩
  · apply Fin.ext
    show ((dims m N n wf).start (ix2 a b) idx 0 + (dims m N n wf).window (ix2 a b) 0).toNat = a.val
    rw [hs, hw0]; omega
  · apply Fin.ext
    show ((dims m N n wf).start (ix2 a b) idx 1 + (dims m N n wf).window (ix2 a b) 1).toNat = b.val
    rw [hs, hw1]; omega

/-- Inside the window the scattered array holds the update. -/
theorem scatter_window_apply {m N n : ℕ} (hn : n ≤ N) (wf : ScatterDims.WF ⟨2, ![m, N]⟩ ⟨1, ![1]⟩ ⟨2, ![m, n]⟩ [0, 1] [] [1] 0)
    (x : (⟨2, ![m, N]⟩ : Shape).Idx → α) (idx : IVec ⟨1, ![1]⟩ 32) (hidx : ∀ k, idx k = 0#32)
    (upd : (⟨2, ![m, n]⟩ : Shape).Idx → α) (a : Fin m) (b : Fin n) :
    Host.scatter (dims m N n wf) (fun _ b => b) x idx upd (ix2 a ⟨b.val, lt_of_lt_of_le b.isLt hn⟩) = upd (ix2 a b) := by
  unfold Host.scatter
  refine (foldl_set_hit (ι := (⟨2, ![m, N]⟩ : Shape).Idx) (β := α)
    (fun k : Fin (⟨2, ![m, n]⟩ : Shape).numel => (dims m N n wf).resultIdx? ((⟨2, ![m, n]⟩ : Shape).rowMajor.symm k) idx)
    (fun k => upd ((⟨2, ![m, n]⟩ : Shape).rowMajor.symm k)) _ ?hsome ?hnone
    (ix2 a ⟨b.val, lt_of_lt_of_le b.isLt hn⟩) ((⟨2, ![m, n]⟩ : Shape).rowMajor (ix2 a b)) ?hg
    (List.finRange _) x (List.mem_finRange _) ?huniq).trans ?_
  case hsome => intro r k i i' h; simp only [h]
  case hnone => intro r k h; simp only [h]
  case hg => show (dims m N n wf).resultIdx? ((⟨2, ![m, n]⟩ : Shape).rowMajor.symm ((⟨2, ![m, n]⟩ : Shape).rowMajor (ix2 a b))) idx = _
             rw [Equiv.symm_apply_apply]; exact resultIdx_eq hn wf idx hidx a b
  case huniq =>
    intro k _ hk
    obtain ⟨a', b', hab⟩ : ∃ (a' : Fin m) (b' : Fin n), (⟨2, ![m, n]⟩ : Shape).rowMajor.symm k = ix2 a' b' :=
      ⟨_, _, eq_ix2 _⟩
    have hk' : (dims m N n wf).resultIdx? ((⟨2, ![m, n]⟩ : Shape).rowMajor.symm k) idx
        = some (ix2 a ⟨b.val, lt_of_lt_of_le b.isLt hn⟩) := hk
    rw [hab, resultIdx_eq hn wf idx hidx a' b'] at hk'
    have h0 := congrFun (Option.some.inj hk') 0
    have h1 := congrFun (Option.some.inj hk') 1
    have ea : a' = a := h0
    have eb : b' = b := Fin.ext (by have := congrArg Fin.val h1; exact this)
    rw [← Equiv.symm_apply_eq, hab, ea, eb]
  show upd ((⟨2, ![m, n]⟩ : Shape).rowMajor.symm ((⟨2, ![m, n]⟩ : Shape).rowMajor (ix2 a b))) = _
  rw [Equiv.symm_apply_apply]

end Cert.LibScatterWindow
-- ==== Proof.LibTRefCast.lean ====
/-
  Contents carried to a typed reference's buffer and back.

  A host function's operations state their values at the value's type and store them at the buffer's type, which is
  the same type by the reference's own equation; a value stored by one such operation and read by another goes through
  the transport and back, and is unchanged.
-/
import Idealize.ShloMosaic.Lib.StableHlo

namespace Cert.LibTRefCast

open Idealize.ShloMosaic Idealize.ShloMosaic.StableHlo

/-- There and back along the reference's type equation is the identity. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTRefCast
-- ==== Proof.KernelHost.lean ====
/-
  The arrays the kernel's region finds, at the ideal values.

  Before the region the host builds the arrays the kernel's windows stage: the inputs' rows unchanged (a change of
  format), the first weights transposed, the three hidden weight arrays masked and transposed — the third with its
  columns reversed before the transposition —, the output weights transposed and written into the first three of 128
  zero columns, the output bias likewise, and the bias vectors as one-row arrays. The mask is built first; the other
  operations are read with the mask as a given array. The masked weights vanish left of the diagonal: transposed, where
  the contracted coordinate is below the output coordinate; reversed and transposed, where the two coordinates add up to
  more than 2047.
-/
import proofs.«164725_j36610301231756_2_alg».proof.Proof.Gen.KernelIdeal.Frame
import proofs.«164725_j36610301231756_2_alg».proof.Proof.Body
import proofs.«164725_j36610301231756_2_alg».proof.Proof.MaskedW
import proofs.«164725_j36610301231756_2_alg».proof.Proof.LibScatterWindow
import proofs.«164725_j36610301231756_2_alg».proof.Proof.LibTRefCast
import Idealize.ShloMosaic.Lib.ValueLayout

set_option maxRecDepth 65536

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Idealize.ShloMosaic.ValueIdx Cert.KernelIdeal Cert.KernelIdeal.Gen Cert.KernelIdeal.Body Cert.Spec Cert.LibLinearLayer Cert.MaskedW Cert.LibTRefCast

variable (m : (ℓ : Loc nD τ sig) → Buf (Elt Ideal) ℓ) (ρ : Dev nD → PrngReg)

/-! ## The arrays the region finds -/

section HostPrefix

/-- The host operations before the region that build the mask, -/
abbrev preMask : List (HloOp τ sig (Elt Ideal)) := hostOps0 ++ hostOps0_1
/-- and the rest of them. -/
abbrev preRest : List (HloOp τ sig (Elt Ideal)) :=
  List.flatten [hostOps0_2, hostOps0_3, hostOps0_4, hostOps0_5, hostOps0_6, hostOps0_7, hostOps0_8]

theorem V0_split (c : Dev nD) : V0 m c = StableHlo.after preRest (StableHlo.after preMask (fun b => m (c, b))) := by
  show StableHlo.after (preMask ++ preRest) (fun b => m (c, b)) = _
  exact StableHlo.after_append _ _ _

variable (W : Valuation τ sig (Elt Ideal))

/-- The mask. -/
theorem mask_v1 : StableHlo.after preMask W (Proc.devRef .tc main_v1) = triuMask := by
  simp only [preMask, hostOps0, hostOps0_1, List.cons_append, List.nil_append]
  after_results_simp
  try simp only [ofBuf_toBuf]
  try simp only [cast_eq]
  try rfl

theorem keepMask_arg0 : StableHlo.after preMask W (Proc.devRef .tc main_arg0) = W (Proc.devRef .tc main_arg0) := by
  simp only [preMask, hostOps0, hostOps0_1, List.cons_append, List.nil_append]; after_results_simp
theorem keepMask_arg1 : StableHlo.after preMask W (Proc.devRef .tc main_arg1) = W (Proc.devRef .tc main_arg1) := by
  simp only [preMask, hostOps0, hostOps0_1, List.cons_append, List.nil_append]; after_results_simp
theorem keepMask_arg2 : StableHlo.after preMask W (Proc.devRef .tc main_arg2) = W (Proc.devRef .tc main_arg2) := by
  simp only [preMask, hostOps0, hostOps0_1, List.cons_append, List.nil_append]; after_results_simp
theorem keepMask_arg3 : StableHlo.after preMask W (Proc.devRef .tc main_arg3) = W (Proc.devRef .tc main_arg3) := by
  simp only [preMask, hostOps0, hostOps0_1, List.cons_append, List.nil_append]; after_results_simp
theorem keepMask_arg4 : StableHlo.after preMask W (Proc.devRef .tc main_arg4) = W (Proc.devRef .tc main_arg4) := by
  simp only [preMask, hostOps0, hostOps0_1, List.cons_append, List.nil_append]; after_results_simp
theorem keepMask_arg5 : StableHlo.after preMask W (Proc.devRef .tc main_arg5) = W (Proc.devRef .tc main_arg5) := by
  simp only [preMask, hostOps0, hostOps0_1, List.cons_append, List.nil_append]; after_results_simp
theorem keepMask_arg6 : StableHlo.after preMask W (Proc.devRef .tc main_arg6) = W (Proc.devRef .tc main_arg6) := by
  simp only [preMask, hostOps0, hostOps0_1, List.cons_append, List.nil_append]; after_results_simp
theorem keepMask_arg7 : StableHlo.after preMask W (Proc.devRef .tc main_arg7) = W (Proc.devRef .tc main_arg7) := by
  simp only [preMask, hostOps0, hostOps0_1, List.cons_append, List.nil_append]; after_results_simp
theorem keepMask_arg8 : StableHlo.after preMask W (Proc.devRef .tc main_arg8) = W (Proc.devRef .tc main_arg8) := by
  simp only [preMask, hostOps0, hostOps0_1, List.cons_append, List.nil_append]; after_results_simp
theorem keepMask_arg9 : StableHlo.after preMask W (Proc.devRef .tc main_arg9) = W (Proc.devRef .tc main_arg9) := by
  simp only [preMask, hostOps0, hostOps0_1, List.cons_append, List.nil_append]; after_results_simp
theorem keepMask_arg10 : StableHlo.after preMask W (Proc.devRef .tc main_arg10) = W (Proc.devRef .tc main_arg10) := by
  simp only [preMask, hostOps0, hostOps0_1, List.cons_append, List.nil_append]; after_results_simp

theorem rest_v27 : StableHlo.after preRest W (Proc.devRef .tc main_v27) = (W (Proc.devRef .tc main_arg0)) := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v7 : StableHlo.after preRest W (Proc.devRef .tc main_v7) = transpose S64x2048 [1, 0] (W (Proc.devRef .tc main_arg1)) transposes_S2048x64_S64x2048_1_0 := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v23 : StableHlo.after preRest W (Proc.devRef .tc main_v23) = shapeCast S1x2048 (W (Proc.devRef .tc main_arg2)) shapeCasts_S2048_S1x2048 := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v9 : StableHlo.after preRest W (Proc.devRef .tc main_v9) = (transpose S2048x2048 [1, 0] (select (W (Proc.devRef .tc main_v1)) (W (Proc.devRef .tc main_arg3)) (broadcastInDim S2048x2048 ![] bcast_S_S2048x2048 (constant (F := Ideal) S_ .f32 0x00000000#32))) transposes_S2048x2048_S2048x2048_1_0) := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v24 : StableHlo.after preRest W (Proc.devRef .tc main_v24) = shapeCast S1x2048 (W (Proc.devRef .tc main_arg4)) shapeCasts_S2048_S1x2048 := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v11 : StableHlo.after preRest W (Proc.devRef .tc main_v11) = (transpose S2048x2048 [1, 0] (select (W (Proc.devRef .tc main_v1)) (W (Proc.devRef .tc main_arg5)) (broadcastInDim S2048x2048 ![] bcast_S_S2048x2048 (constant (F := Ideal) S_ .f32 0x00000000#32))) transposes_S2048x2048_S2048x2048_1_0) := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v25 : StableHlo.after preRest W (Proc.devRef .tc main_v25) = shapeCast S1x2048 (W (Proc.devRef .tc main_arg6)) shapeCasts_S2048_S1x2048 := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v13 : StableHlo.after preRest W (Proc.devRef .tc main_v13)
    = transpose S2048x2048 [1, 0] (Host.reverse [1] (select (W (Proc.devRef .tc main_v1)) (W (Proc.devRef .tc main_arg7)) (broadcastInDim S2048x2048 ![] bcast_S_S2048x2048 (constant (F := Ideal) S_ .f32 0x00000000#32)))) transposes_S2048x2048_S2048x2048_1_0 := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v26 : StableHlo.after preRest W (Proc.devRef .tc main_v26) = shapeCast S1x2048 (W (Proc.devRef .tc main_arg8)) shapeCasts_S2048_S1x2048 := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v18 : StableHlo.after preRest W (Proc.devRef .tc main_v18)
    = truncf .bf16 (Host.scatter scatter_S2048x128_S1_S2048x3_01_n_1_0 (fun _ b => b)
        (broadcastInDim S2048x128 ![] bcast_S_S2048x128 (constant (F := Ideal) S_ .f32 0x00000000#32))
        (broadcastInDim S1 ![] bcast_S_S1 (constantI S_ 32 0#32))
        (transpose S2048x3 [1, 0] (W (Proc.devRef .tc main_arg9)) transposes_S3x2048_S2048x3_1_0)) bitsLt_bf16_f32 := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

theorem rest_v22 : StableHlo.after preRest W (Proc.devRef .tc main_v22)
    = Host.scatter scatter_S1x128_S1_S1x3_01_n_1_0 (fun _ b => b)
        (broadcastInDim S1x128 ![] bcast_S_S1x128 (constant (F := Ideal) S_ .f32 0x00000000#32))
        (broadcastInDim S1 ![] bcast_S_S1 (constantI S_ 32 0#32))
        (shapeCast S1x3 (W (Proc.devRef .tc main_arg10)) shapeCasts_S3_S1x3) := by
  simp only [preRest, hostOps0_2, hostOps0_3, hostOps0_4, hostOps0_5, hostOps0_6, hostOps0_7, hostOps0_8, List.flatten_cons, List.flatten_nil, List.append_nil, List.cons_append, List.nil_append]
  after_results_simp
  try simp only [ofBuf_toBuf]
  try simp only [cast_eq]
  try rfl

end HostPrefix

theorem V_v27 (c : Dev nD) : V m c main_v27 = (m ((c : Thread nD τ).loc main_arg0)) := by
  show V0 m c (Proc.devRef .tc main_v27) = _
  rw [V0_split, rest_v27, keepMask_arg0]
  try rfl

theorem V_v7 (c : Dev nD) : V m c main_v7 = transpose S64x2048 [1, 0] (m ((c : Thread nD τ).loc main_arg1)) transposes_S2048x64_S64x2048_1_0 := by
  show V0 m c (Proc.devRef .tc main_v7) = _
  rw [V0_split, rest_v7, keepMask_arg1]
  try rfl

theorem V_v23 (c : Dev nD) : V m c main_v23 = shapeCast S1x2048 (m ((c : Thread nD τ).loc main_arg2)) shapeCasts_S2048_S1x2048 := by
  show V0 m c (Proc.devRef .tc main_v23) = _
  rw [V0_split, rest_v23, keepMask_arg2]
  try rfl

theorem V_v9 (c : Dev nD) : V m c main_v9 = transpose S2048x2048 [1, 0] (masked (m ((c : Thread nD τ).loc main_arg3))) transposes_S2048x2048_S2048x2048_1_0 := by
  show V0 m c (Proc.devRef .tc main_v9) = _
  rw [V0_split, rest_v9, mask_v1, keepMask_arg3]
  try rfl

theorem V_v24 (c : Dev nD) : V m c main_v24 = shapeCast S1x2048 (m ((c : Thread nD τ).loc main_arg4)) shapeCasts_S2048_S1x2048 := by
  show V0 m c (Proc.devRef .tc main_v24) = _
  rw [V0_split, rest_v24, keepMask_arg4]
  try rfl

theorem V_v11 (c : Dev nD) : V m c main_v11 = transpose S2048x2048 [1, 0] (masked (m ((c : Thread nD τ).loc main_arg5))) transposes_S2048x2048_S2048x2048_1_0 := by
  show V0 m c (Proc.devRef .tc main_v11) = _
  rw [V0_split, rest_v11, mask_v1, keepMask_arg5]
  try rfl

theorem V_v25 (c : Dev nD) : V m c main_v25 = shapeCast S1x2048 (m ((c : Thread nD τ).loc main_arg6)) shapeCasts_S2048_S1x2048 := by
  show V0 m c (Proc.devRef .tc main_v25) = _
  rw [V0_split, rest_v25, keepMask_arg6]
  try rfl

theorem V_v13 (c : Dev nD) : V m c main_v13 = transpose S2048x2048 [1, 0] (Host.reverse [1] (masked (m ((c : Thread nD τ).loc main_arg7)))) transposes_S2048x2048_S2048x2048_1_0 := by
  show V0 m c (Proc.devRef .tc main_v13) = _
  rw [V0_split, rest_v13, mask_v1, keepMask_arg7]
  try rfl

theorem V_v26 (c : Dev nD) : V m c main_v26 = shapeCast S1x2048 (m ((c : Thread nD τ).loc main_arg8)) shapeCasts_S2048_S1x2048 := by
  show V0 m c (Proc.devRef .tc main_v26) = _
  rw [V0_split, rest_v26, keepMask_arg8]
  try rfl

theorem V_v18 (c : Dev nD) : V m c main_v18 = truncf .bf16 (Host.scatter scatter_S2048x128_S1_S2048x3_01_n_1_0 (fun _ b => b)
        (broadcastInDim S2048x128 ![] bcast_S_S2048x128 (constant (F := Ideal) S_ .f32 0x00000000#32))
        (broadcastInDim S1 ![] bcast_S_S1 (constantI S_ 32 0#32))
        (transpose S2048x3 [1, 0] (m ((c : Thread nD τ).loc main_arg9)) transposes_S3x2048_S2048x3_1_0)) bitsLt_bf16_f32 := by
  show V0 m c (Proc.devRef .tc main_v18) = _
  rw [V0_split, rest_v18, keepMask_arg9]
  try rfl

theorem V_v22 (c : Dev nD) : V m c main_v22 = Host.scatter scatter_S1x128_S1_S1x3_01_n_1_0 (fun _ b => b)
        (broadcastInDim S1x128 ![] bcast_S_S1x128 (constant (F := Ideal) S_ .f32 0x00000000#32))
        (broadcastInDim S1 ![] bcast_S_S1 (constantI S_ 32 0#32))
        (shapeCast S1x3 (m ((c : Thread nD τ).loc main_arg10)) shapeCasts_S3_S1x3) := by
  show V0 m c (Proc.devRef .tc main_v22) = _
  rw [V0_split, rest_v22, keepMask_arg10]
  try rfl

/-! ## Where the hidden weights vanish -/

theorem lower_v9 (c : Dev nD) : LowerZero (V m c main_v9) := by
  intro k n h
  rw [V_v9]
  exact (transpose_ix2_apply _ _ k n).trans (masked_zero _ n k h)

theorem lower_v11 (c : Dev nD) : LowerZero (V m c main_v11) := by
  intro k n h
  rw [V_v11]
  exact (transpose_ix2_apply _ _ k n).trans (masked_zero _ n k h)

theorem anti_v13 (c : Dev nD) : AntiZero (V m c main_v13) := by
  intro k n h
  rw [V_v13]
  refine (transpose_ix2_apply _ _ k n).trans ?_
  have e : Host.reverse [1] (masked (m ((c : Thread nD τ).loc main_arg7))) (ix2 n k) = masked (m ((c : Thread nD τ).loc main_arg7)) (ix2 n k.rev) :=
    congrArg (masked (m ((c : Thread nD τ).loc main_arg7))) (funext fun a => by
      match a with
      | ⟨0, _⟩ => rfl
      | ⟨1, _⟩ => rfl)
  rw [e]
  exact masked_zero _ n k.rev (by rw [Fin.val_rev]; omega)

end Cert.KernelIdeal.KValue

end
-- ==== Proof.KernelValue.lean ====
/-
  What the kernel's region leaves in its result array, at the ideal values.

  Grid point t stages rows 256·t … 256·t + 255 of the input and the whole of every other array, and writes back the same
  rows of the result; so what it writes is those rows of the perceptron of the arrays the region found, and the 128
  points cover the 32768 rows.
-/
import proofs.«164725_j36610301231756_2_alg».proof.Proof.Gen.KernelIdeal.Frame
import proofs.«164725_j36610301231756_2_alg».proof.Proof.KernelHost
import proofs.«164725_j36610301231756_2_alg».proof.Proof.MaskedW
import proofs.«164725_j36610301231756_2_alg».proof.Proof.LibScatterWindow
import proofs.«164725_j36610301231756_2_alg».proof.Proof.LibTRefCast
import Idealize.ShloMosaic.Lib.ValueLayout

set_option maxRecDepth 65536

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Idealize.ShloMosaic.ValueIdx Cert.KernelIdeal Cert.KernelIdeal.Gen Cert.KernelIdeal.Body Cert.Spec Cert.LibLinearLayer Cert.MaskedW Cert.LibTRefCast

variable (m : (ℓ : Loc nD τ sig) → Buf (Elt Ideal) ℓ) (ρ : Dev nD → PrngReg)

/-! ## The blocks the grid points stage -/

/-- The printed index maps, decided over the grid: the input and the result move one block of rows per point, every
    other window stays at its one block. -/
theorem idx_rows : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

theorem idx_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem iblk_1 (c : Dev nD) (t : Fin cfg0.N) : iblk m c 1 t = V m c main_v7 := by
  funext j
  unfold iblk
  rw [View.read_apply, cast_eq]
  refine congrArg (V m c main_v7) ?_
  funext a
  apply Fin.ext
  have hf := idx_whole t
  have h0 : (cfg0.win 1).index t a = 0 := by
    revert a
    exact Fin.forall_fin_two.2 ⟨hf.1, hf.2.1⟩
  exact Window.rect_emb_val_of_index_zero (cfg0.win 1) t a h0 j

theorem iblk_2 (c : Dev nD) (t : Fin cfg0.N) : iblk m c 2 t = V m c main_v23 := by
  funext j
  unfold iblk
  rw [View.read_apply, cast_eq]
  refine congrArg (V m c main_v23) ?_
  funext a
  apply Fin.ext
  have hf := idx_whole t
  have h0 : (cfg0.win 2).index t a = 0 := by
    revert a
    exact Fin.forall_fin_two.2 ⟨hf.2.2.1, hf.2.2.2.1⟩
  exact Window.rect_emb_val_of_index_zero (cfg0.win 2) t a h0 j

theorem iblk_3 (c : Dev nD) (t : Fin cfg0.N) : iblk m c 3 t = V m c main_v9 := by
  funext j
  unfold iblk
  rw [View.read_apply, cast_eq]
  refine congrArg (V m c main_v9) ?_
  funext a
  apply Fin.ext
  have hf := idx_whole t
  have h0 : (cfg0.win 3).index t a = 0 := by
    revert a
    exact Fin.forall_fin_two.2 ⟨hf.2.2.2.2.1, hf.2.2.2.2.2.1⟩
  exact Window.rect_emb_val_of_index_zero (cfg0.win 3) t a h0 j

theorem iblk_4 (c : Dev nD) (t : Fin cfg0.N) : iblk m c 4 t = V m c main_v24 := by
  funext j
  unfold iblk
  rw [View.read_apply, cast_eq]
  refine congrArg (V m c main_v24) ?_
  funext a
  apply Fin.ext
  have hf := idx_whole t
  have h0 : (cfg0.win 4).index t a = 0 := by
    revert a
    exact Fin.forall_fin_two.2 ⟨hf.2.2.2.2.2.2.1, hf.2.2.2.2.2.2.2.1⟩
  exact Window.rect_emb_val_of_index_zero (cfg0.win 4) t a h0 j

theorem iblk_5 (c : Dev nD) (t : Fin cfg0.N) : iblk m c 5 t = V m c main_v11 := by
  funext j
  unfold iblk
  rw [View.read_apply, cast_eq]
  refine congrArg (V m c main_v11) ?_
  funext a
  apply Fin.ext
  have hf := idx_whole t
  have h0 : (cfg0.win 5).index t a = 0 := by
    revert a
    exact Fin.forall_fin_two.2 ⟨hf.2.2.2.2.2.2.2.2.1, hf.2.2.2.2.2.2.2.2.2.1⟩
  exact Window.rect_emb_val_of_index_zero (cfg0.win 5) t a h0 j

theorem iblk_6 (c : Dev nD) (t : Fin cfg0.N) : iblk m c 6 t = V m c main_v25 := by
  funext j
  unfold iblk
  rw [View.read_apply, cast_eq]
  refine congrArg (V m c main_v25) ?_
  funext a
  apply Fin.ext
  have hf := idx_whole t
  have h0 : (cfg0.win 6).index t a = 0 := by
    revert a
    exact Fin.forall_fin_two.2 ⟨hf.2.2.2.2.2.2.2.2.2.2.1, hf.2.2.2.2.2.2.2.2.2.2.2.1⟩
  exact Window.rect_emb_val_of_index_zero (cfg0.win 6) t a h0 j

theorem iblk_7 (c : Dev nD) (t : Fin cfg0.N) : iblk m c 7 t = V m c main_v13 := by
  funext j
  unfold iblk
  rw [View.read_apply, cast_eq]
  refine congrArg (V m c main_v13) ?_
  funext a
  apply Fin.ext
  have hf := idx_whole t
  have h0 : (cfg0.win 7).index t a = 0 := by
    revert a
    exact Fin.forall_fin_two.2 ⟨hf.2.2.2.2.2.2.2.2.2.2.2.2.1, hf.2.2.2.2.2.2.2.2.2.2.2.2.2.1⟩
  exact Window.rect_emb_val_of_index_zero (cfg0.win 7) t a h0 j

theorem iblk_8 (c : Dev nD) (t : Fin cfg0.N) : iblk m c 8 t = V m c main_v26 := by
  funext j
  unfold iblk
  rw [View.read_apply, cast_eq]
  refine congrArg (V m c main_v26) ?_
  funext a
  apply Fin.ext
  have hf := idx_whole t
  have h0 : (cfg0.win 8).index t a = 0 := by
    revert a
    exact Fin.forall_fin_two.2 ⟨hf.2.2.2.2.2.2.2.2.2.2.2.2.2.2.1, hf.2.2.2.2.2.2.2.2.2.2.2.2.2.2.2.1⟩
  exact Window.rect_emb_val_of_index_zero (cfg0.win 8) t a h0 j

theorem iblk_9 (c : Dev nD) (t : Fin cfg0.N) : iblk m c 9 t = V m c main_v18 := by
  funext j
  unfold iblk
  rw [View.read_apply, cast_eq]
  refine congrArg (V m c main_v18) ?_
  funext a
  apply Fin.ext
  have hf := idx_whole t
  have h0 : (cfg0.win 9).index t a = 0 := by
    revert a
    exact Fin.forall_fin_two.2 ⟨hf.2.2.2.2.2.2.2.2.2.2.2.2.2.2.2.2.1, hf.2.2.2.2.2.2.2.2.2.2.2.2.2.2.2.2.2.1⟩
  exact Window.rect_emb_val_of_index_zero (cfg0.win 9) t a h0 j

theorem iblk_10 (c : Dev nD) (t : Fin cfg0.N) : iblk m c 10 t = V m c main_v22 := by
  funext j
  unfold iblk
  rw [View.read_apply, cast_eq]
  refine congrArg (V m c main_v22) ?_
  funext a
  apply Fin.ext
  have hf := idx_whole t
  have h0 : (cfg0.win 10).index t a = 0 := by
    revert a
    exact Fin.forall_fin_two.2 ⟨hf.2.2.2.2.2.2.2.2.2.2.2.2.2.2.2.2.2.2.1, hf.2.2.2.2.2.2.2.2.2.2.2.2.2.2.2.2.2.2.2⟩
  exact Window.rect_emb_val_of_index_zero (cfg0.win 10) t a h0 j

/-- Row p of the input block at point t is row 256·t + p of the input. -/
theorem iblk_0 (c : Dev nD) (t : Fin cfg0.N) (p : Fin 256) (f : Fin 64) (A : Fin 32768) (hA : A.val = 256 * t.val + p.val) :
    iblk m c 0 t (ix2 p f) = V m c main_v27 (ix2 A f) := by
  unfold iblk
  rw [View.read_apply, cast_eq]
  refine congrArg (V m c main_v27) ?_
  obtain ⟨e0, e1, -, -⟩ := idx_rows t
  funext a
  apply Fin.ext
  revert a
  refine Fin.forall_fin_two.2 ⟨?_, ?_⟩
  · refine (Window.rect_emb_val (cfg0.win 0) t (ix2 p f) 0).trans ?_
    show win0_0.index t (0 : Fin 2) * 256 + p.val = A.val
    omega
  · refine (Window.rect_emb_val (cfg0.win 0) t (ix2 p f) 1).trans ?_
    show win0_0.index t (1 : Fin 2) * 64 + f.val = f.val
    omega

/-! ## The result array after the region -/

/-- The 32768 × 128 array the region leaves: the perceptron of the arrays the region found. -/
def G28 (c : Dev nD) : FVec Ideal S32768x128 .f32 :=
  net (V m c main_v27) (V m c main_v7) (fun q => V m c main_v23 (ix2 (0 : Fin 1) q)) (V m c main_v9)
    (fun q => V m c main_v24 (ix2 (0 : Fin 1) q)) (V m c main_v11) (fun q => V m c main_v25 (ix2 (0 : Fin 1) q)) (V m c main_v13)
    (fun q => V m c main_v26 (ix2 (0 : Fin 1) q)) (V m c main_v18) (fun q => V m c main_v22 (ix2 (0 : Fin 1) q))

/-- Where entry (p, q) of point t's block of the result sits in the result. -/
theorem emb_11 (t : Fin cfg0.N) (p : Fin 256) (q : Fin 128) (A : Fin 32768) (hA : A.val = 256 * t.val + p.val) :
    ((cfg0.win 11).blk t).view.emb (ix2 p q) = ix2 A q := by
  obtain ⟨-, -, e2, e3⟩ := idx_rows t
  funext a
  apply Fin.ext
  revert a
  refine Fin.forall_fin_two.2 ⟨?_, ?_⟩
  · refine (Window.rect_emb_val (cfg0.win 11) t (ix2 p q) 0).trans ?_
    show win0_11.index t (0 : Fin 2) * 256 + p.val = A.val
    omega
  · refine (Window.rect_emb_val (cfg0.win 11) t (ix2 p q) 1).trans ?_
    show win0_11.index t (1 : Fin 2) * 128 + q.val = q.val
    omega

/-- What point t writes back is its block of rows of that array. -/
theorem flushed_eq (c : Dev nD) (t : Fin cfg0.N) :
    (dats m 0 c).flushed 11 t = ((cfg0.win 11).blk t).view.read (Elt Ideal) (G28 m c) := by
  show (cfg0.win 11).cut (grid0.coords t) ((dats m 0 c).after 11 t) = _
  rw [after0_11]
  unfold outsAt0
  have h3 : LowerZero (iblk m c 3 t) := by rw [iblk_3]; exact lower_v9 m c
  have h5 : LowerZero (iblk m c 5 t) := by rw [iblk_5]; exact lower_v11 m c
  have h7 : AntiZero (iblk m c 7 t) := by rw [iblk_7]; exact anti_v13 m c
  rw [body_value c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (grid0.coords t) h3 h5 h7]
  rw [iblk_1, iblk_2, iblk_3, iblk_4, iblk_5, iblk_6, iblk_7, iblk_8, iblk_9, iblk_10]
  funext j
  obtain ⟨p, q, rfl⟩ : ∃ (p : Fin 256) (q : Fin 128), j = ix2 p q := ⟨j 0, j 1, eq_ix2 j⟩
  have ht := t.isLt
  have hA : 256 * t.val + p.val < 32768 := by have := p.isLt; have : t.val < 128 := ht; omega
  rw [View.read_apply, cast_eq, emb_11 t p q ⟨256 * t.val + p.val, hA⟩ rfl]
  exact net_rows (V m c main_v27) (iblk m c 0 t) _ _ _ _ _ _ _ _ _ _ p ⟨256 * t.val + p.val, hA⟩ q
    (fun f => iblk_0 m c t p f _ rfl)

/-- The 128 blocks of rows cover the result. -/
theorem cover (i : S32768x128.Idx) : ∃ t : Fin cfg0.N, (cfg0.win 11).flush t = true ∧ i ∈ ((cfg0.win 11).blk t).view.set := by
  have hi0 : (i 0).val < 32768 := (i 0).isLt
  have hi1 : (i 1).val < 128 := (i 1).isLt
  have ht : (i 0).val / 256 < 128 := by omega
  refine ⟨⟨(i 0).val / 256, ht⟩, flush0_11 _, ?_⟩
  have hp : (i 0).val % 256 < 256 := Nat.mod_lt _ (by norm_num)
  have e := emb_11 ⟨(i 0).val / 256, ht⟩ ⟨(i 0).val % 256, hp⟩ ⟨(i 1).val, hi1⟩ ⟨(i 0).val, hi0⟩
    (by show (i 0).val = 256 * ((i 0).val / 256) + (i 0).val % 256; omega)
  have hi : i = ix2 (⟨(i 0).val, hi0⟩ : Fin 32768) (⟨(i 1).val, hi1⟩ : Fin 128) := eq_ix2 i
  have hmem := View.emb_mem_set ((cfg0.win 11).blk ⟨(i 0).val / 256, ht⟩).view
    (ix2 (⟨(i 0).val % 256, hp⟩ : Fin 256) (⟨(i 1).val, hi1⟩ : Fin 128))
  rw [e, ← hi] at hmem
  exact hmem

/-- The result array after the region. -/
theorem final (c : Dev nD) : (dats m 0 c).arrAt 11 cfg0.N = G28 m c :=
  (dats m 0 c).arrAt_eq_of_cover 11 (G28 m c) (fun t _ => flushed_eq m c t) cover

end Cert.KernelIdeal.KValue

end
-- ==== Proof.KernelRun.lean ====
/-
  The kernel's run with its result named, at the ideal values.

  After the region the host keeps the first three of the 128 columns of the result array; so the program's result at row
  R and column q < 3 is the perceptron's output (R, q), and the argument arrays end as they began.
-/
import proofs.«164725_j36610301231756_2_alg».proof.Proof.KernelValue

set_option maxRecDepth 65536

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Idealize.ShloMosaic.ValueIdx Cert.KernelIdeal Cert.KernelIdeal.Gen Cert.Spec Cert.LibLinearLayer

variable (m : (ℓ : Loc nD τ sig) → Buf (Elt Ideal) ℓ) (ρ : Dev nD → PrngReg)

/-- The program's result: the first three columns of the array the region leaves. -/
def result (c : Dev nD) : Buf (Elt Ideal) ((c.tc : Thread nD τ).loc main_v29) :=
  extractStridedSlice S32768x3 ![0, 0] (G28 m c) slices_S32768x128_S32768x3_0_0

theorem result_apply (c : Dev nD) (R : Fin 32768) (q : Fin 3) :
    result m c (ix2 R q) = G28 m c (ix2 R ⟨q.val, by have := q.isLt; omega⟩) :=
  slice2_axis1_apply 0 (G28 m c) slices_S32768x128_S32768x3_0_0 R q ⟨q.val, by have := q.isLt; omega⟩ (by show q.val = 0 + q.val; omega)

/-- The slice after the region reads the array the region left. -/
theorem tail_v29 (c : Dev nD) : Pipeline.afterTail₀ cfgs (dats m) 0 (V0 m) [hostOps1] c main_v29 = result m c := by
  unfold Pipeline.afterTail₀
  show StableHlo.after hostOps1 _ (Proc.devRef .tc main_v29) = _
  after_results
  rw [(Pipeline.withArrays_arr spec0 launch0.win.arr_inj c _ _ 11).trans (final m c)]
  rfl

/-- Every weakly fair execution of the kernel's program terminates with the result at `result` and the arguments unchanged. -/
theorem run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v29 (Pipeline.mem_restRefs_of main_v29 (by decide) (by decide))).trans (tail_v29 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KValue

end
-- ==== Proof.RefValue.lean ====
/-
  The reference's result, layer by layer, at the ideal values.

  The reference's run leaves its result as the value its operations compute, in order, from the argument arrays. The
  list of operations is cut here into five stretches, one per affine layer; each stretch is read with the earlier
  stretches' results as given arrays, so that no layer's input is ever written out more than once: the first stretch
  computes x·W₀ + b₀ and the triangular mask, each of the next three the ramp of the previous layer, the masked and
  transposed weights and the layer (the third also reverses the columns of its result), and the last the ramp and the
  output layer. Composed, the result is the perceptron with the activations' columns reversed before the fourth layer.
-/
import proofs.«164725_j36610301231756_2_alg».proof.Proof.RefRunPatched
import proofs.«164725_j36610301231756_2_alg».proof.Proof.Spec
import proofs.«164725_j36610301231756_2_alg».proof.Proof.MaskedW
import proofs.«164725_j36610301231756_2_alg».proof.Proof.LibTRefCast
import Idealize.ShloMosaic.Lib.StableHlo.Run

set_option maxRecDepth 65536

noncomputable section

namespace Cert.ReferenceIdeal.RefValue

open Cert.ReferenceIdeal Cert.ReferenceIdeal.Gen Cert.ReferenceIdeal.ValueP Idealize.ShloMosaic Idealize.ShloMosaic.TcCoe
open Idealize.SL.Sem Idealize.ShloMosaic.StableHlo Idealize.ShloMosaic.ValueIdx Cert.Spec Cert.LibLinearLayer Cert.MaskedW Cert.LibTRefCast

section Stretches

variable {F : FTy → Type} [FloatOps F]

/-- The first layer and the mask: operations 1 to 16. -/
abbrev opsA : List (HloOp τ sig (Elt F)) := (ops (F := F)).take 16
/-- The ramp, the masked weights and the second layer: operations 17 to 32. -/
abbrev opsB : List (HloOp τ sig (Elt F)) := ((ops (F := F)).drop 16).take 16
/-- The ramp, the masked weights, the third layer and the reversal of its columns: operations 33 to 49. -/
abbrev opsC : List (HloOp τ sig (Elt F)) := ((ops (F := F)).drop 32).take 17
/-- The ramp, the masked weights and the fourth layer: operations 50 to 65. -/
abbrev opsD : List (HloOp τ sig (Elt F)) := ((ops (F := F)).drop 49).take 16
/-- The ramp and the output layer: operations 66 to 77. -/
abbrev opsE : List (HloOp τ sig (Elt F)) := (ops (F := F)).drop 65

theorem ops_split : (ops (F := F)) = opsA ++ (opsB ++ (opsC ++ (opsD ++ opsE))) := rfl

end Stretches

section Values

variable (W : Valuation τ sig (Elt Ideal))

/-! ## What each stretch leaves, from any contents `W` before it -/

/-- The first layer. -/
theorem A_out : StableHlo.after (opsA (F := Ideal)) W (Proc.devRef .tc main_v4)
    = lin (W (Proc.devRef .tc main_arg0)) (transpose S64x2048 [1, 0] (W (Proc.devRef .tc main_arg1)) transposes_S2048x64_S64x2048_1_0) (fun q => W (Proc.devRef .tc main_arg2) (ix1 q)) := by
  simp only [opsA, ops, List.drop_succ_cons, List.drop_zero, List.take_succ_cons, List.take_zero]
  after_results_simp
  exact host_eq_lin _ rfl _ _ _ _ _

/-- The mask. -/
theorem A_mask : StableHlo.after (opsA (F := Ideal)) W (Proc.devRef .tc main_v6) = triuMask := by
  simp only [opsA, ops, List.drop_succ_cons, List.drop_zero, List.take_succ_cons, List.take_zero]
  after_results_simp
  try simp only [Cert.LibTRefCast.ofBuf_toBuf]
  simp only [cast_eq]
  rfl

/-- The ramp, the masked and transposed weights, and the layer. -/
theorem B_out : StableHlo.after (opsB (F := Ideal)) W (Proc.devRef .tc main_v17)
    = lin (act (W (Proc.devRef .tc main_v4))) (transpose S2048x2048 [1, 0] (select (W (Proc.devRef .tc main_v6)) (W (Proc.devRef .tc main_arg3)) (broadcastInDim S2048x2048 ![] bcast_S_S2048x2048 (constant (F := Ideal) S_ .f32 0x00000000#32))) transposes_S2048x2048_S2048x2048_1_0) (fun q => W (Proc.devRef .tc main_arg4) (ix1 q)) := by
  simp only [opsB, ops, List.drop_succ_cons, List.drop_zero, List.take_succ_cons, List.take_zero]
  after_results_simp
  try simp only [Cert.LibTRefCast.ofBuf_toBuf]
  simp only [cast_eq]
  refine (host_eq_lin _ rfl _ _ _ _ _).trans ?_
  rfl

/-- The ramp, the masked and transposed weights, the layer, and the reversal of its columns. -/
theorem C_out : StableHlo.after (opsC (F := Ideal)) W (Proc.devRef .tc main_v29)
    = Host.reverse [1] (lin (act (W (Proc.devRef .tc main_v17))) (transpose S2048x2048 [1, 0] (select (W (Proc.devRef .tc main_v6)) (W (Proc.devRef .tc main_arg5)) (broadcastInDim S2048x2048 ![] bcast_S_S2048x2048 (constant (F := Ideal) S_ .f32 0x00000000#32))) transposes_S2048x2048_S2048x2048_1_0) (fun q => W (Proc.devRef .tc main_arg6) (ix1 q))) := by
  simp only [opsC, ops, List.drop_succ_cons, List.drop_zero, List.take_succ_cons, List.take_zero]
  after_results_simp
  try simp only [Cert.LibTRefCast.ofBuf_toBuf]
  simp only [cast_eq]
  refine congrArg (Host.reverse [1]) ?_
  refine (host_eq_lin _ rfl _ _ _ _ _).trans ?_
  rfl

/-- The ramp, the masked and transposed weights, and the layer. -/
theorem D_out : StableHlo.after (opsD (F := Ideal)) W (Proc.devRef .tc main_v40)
    = lin (act (W (Proc.devRef .tc main_v29))) (transpose S2048x2048 [1, 0] (select (W (Proc.devRef .tc main_v6)) (W (Proc.devRef .tc main_arg7)) (broadcastInDim S2048x2048 ![] bcast_S_S2048x2048 (constant (F := Ideal) S_ .f32 0x00000000#32))) transposes_S2048x2048_S2048x2048_1_0) (fun q => W (Proc.devRef .tc main_arg8) (ix1 q)) := by
  simp only [opsD, ops, List.drop_succ_cons, List.drop_zero, List.take_succ_cons, List.take_zero]
  after_results_simp
  try simp only [Cert.LibTRefCast.ofBuf_toBuf]
  simp only [cast_eq]
  refine (host_eq_lin _ rfl _ _ _ _ _).trans ?_
  rfl

/-- The ramp and the output layer. -/
theorem E_out : StableHlo.after (opsE (F := Ideal)) W (Proc.devRef .tc main_v50)
    = lin (act (W (Proc.devRef .tc main_v40))) (transpose S2048x3 [1, 0] (W (Proc.devRef .tc main_arg9)) transposes_S3x2048_S2048x3_1_0) (fun q => W (Proc.devRef .tc main_arg10) (ix1 q)) := by
  simp only [opsE, ops, List.drop_succ_cons, List.drop_zero, List.take_succ_cons, List.take_zero]
  after_results_simp
  try simp only [Cert.LibTRefCast.ofBuf_toBuf]
  simp only [cast_eq]
  refine (host_eq_lin _ rfl _ _ _ _ _).trans ?_
  rfl

/-! ## What each stretch leaves alone -/

theorem keepA_arg3 : StableHlo.after (opsA (F := Ideal)) W (Proc.devRef .tc main_arg3) = W (Proc.devRef .tc main_arg3) := by
  simp only [opsA, ops, List.drop_succ_cons, List.drop_zero, List.take_succ_cons, List.take_zero]; after_results_simp
theorem keepA_arg4 : StableHlo.after (opsA (F := Ideal)) W (Proc.devRef .tc main_arg4) = W (Proc.devRef .tc main_arg4) := by
  simp only [opsA, ops, List.drop_succ_cons, List.drop_zero, List.take_succ_cons, List.take_zero]; after_results_simp
theorem keepA_arg5 : StableHlo.after (opsA (F := Ideal)) W (Proc.devRef .tc main_arg5) = W (Proc.devRef .tc main_arg5) := by
  simp only [opsA, ops, List.drop_succ_cons, List.drop_zero, List.take_succ_cons, List.take_zero]; after_results_simp
theorem keepA_arg6 : StableHlo.after (opsA (F := Ideal)) W (Proc.devRef .tc main_arg6) = W (Proc.devRef .tc main_arg6) := by
  simp only [opsA, ops, List.drop_succ_cons, List.drop_zero, List.take_succ_cons, List.take_zero]; after_results_simp
theorem keepA_arg7 : StableHlo.after (opsA (F := Ideal)) W (Proc.devRef .tc main_arg7) = W (Proc.devRef .tc main_arg7) := by
  simp only [opsA, ops, List.drop_succ_cons, List.drop_zero, List.take_succ_cons, List.take_zero]; after_results_simp
theorem keepA_arg8 : StableHlo.after (opsA (F := Ideal)) W (Proc.devRef .tc main_arg8) = W (Proc.devRef .tc main_arg8) := by
  simp only [opsA, ops, List.drop_succ_cons, List.drop_zero, List.take_succ_cons, List.take_zero]; after_results_simp
theorem keepA_arg9 : StableHlo.after (opsA (F := Ideal)) W (Proc.devRef .tc main_arg9) = W (Proc.devRef .tc main_arg9) := by
  simp only [opsA, ops, List.drop_succ_cons, List.drop_zero, List.take_succ_cons, List.take_zero]; after_results_simp
theorem keepA_arg10 : StableHlo.after (opsA (F := Ideal)) W (Proc.devRef .tc main_arg10) = W (Proc.devRef .tc main_arg10) := by
  simp only [opsA, ops, List.drop_succ_cons, List.drop_zero, List.take_succ_cons, List.take_zero]; after_results_simp
theorem keepB_v6 : StableHlo.after (opsB (F := Ideal)) W (Proc.devRef .tc main_v6) = W (Proc.devRef .tc main_v6) := by
  simp only [opsB, ops, List.drop_succ_cons, List.drop_zero, List.take_succ_cons, List.take_zero]; after_results_simp
theorem keepB_arg5 : StableHlo.after (opsB (F := Ideal)) W (Proc.devRef .tc main_arg5) = W (Proc.devRef .tc main_arg5) := by
  simp only [opsB, ops, List.drop_succ_cons, List.drop_zero, List.take_succ_cons, List.take_zero]; after_results_simp
theorem keepB_arg6 : StableHlo.after (opsB (F := Ideal)) W (Proc.devRef .tc main_arg6) = W (Proc.devRef .tc main_arg6) := by
  simp only [opsB, ops, List.drop_succ_cons, List.drop_zero, List.take_succ_cons, List.take_zero]; after_results_simp
theorem keepB_arg7 : StableHlo.after (opsB (F := Ideal)) W (Proc.devRef .tc main_arg7) = W (Proc.devRef .tc main_arg7) := by
  simp only [opsB, ops, List.drop_succ_cons, List.drop_zero, List.take_succ_cons, List.take_zero]; after_results_simp
theorem keepB_arg8 : StableHlo.after (opsB (F := Ideal)) W (Proc.devRef .tc main_arg8) = W (Proc.devRef .tc main_arg8) := by
  simp only [opsB, ops, List.drop_succ_cons, List.drop_zero, List.take_succ_cons, List.take_zero]; after_results_simp
theorem keepB_arg9 : StableHlo.after (opsB (F := Ideal)) W (Proc.devRef .tc main_arg9) = W (Proc.devRef .tc main_arg9) := by
  simp only [opsB, ops, List.drop_succ_cons, List.drop_zero, List.take_succ_cons, List.take_zero]; after_results_simp
theorem keepB_arg10 : StableHlo.after (opsB (F := Ideal)) W (Proc.devRef .tc main_arg10) = W (Proc.devRef .tc main_arg10) := by
  simp only [opsB, ops, List.drop_succ_cons, List.drop_zero, List.take_succ_cons, List.take_zero]; after_results_simp
theorem keepC_v6 : StableHlo.after (opsC (F := Ideal)) W (Proc.devRef .tc main_v6) = W (Proc.devRef .tc main_v6) := by
  simp only [opsC, ops, List.drop_succ_cons, List.drop_zero, List.take_succ_cons, List.take_zero]; after_results_simp
theorem keepC_arg7 : StableHlo.after (opsC (F := Ideal)) W (Proc.devRef .tc main_arg7) = W (Proc.devRef .tc main_arg7) := by
  simp only [opsC, ops, List.drop_succ_cons, List.drop_zero, List.take_succ_cons, List.take_zero]; after_results_simp
theorem keepC_arg8 : StableHlo.after (opsC (F := Ideal)) W (Proc.devRef .tc main_arg8) = W (Proc.devRef .tc main_arg8) := by
  simp only [opsC, ops, List.drop_succ_cons, List.drop_zero, List.take_succ_cons, List.take_zero]; after_results_simp
theorem keepC_arg9 : StableHlo.after (opsC (F := Ideal)) W (Proc.devRef .tc main_arg9) = W (Proc.devRef .tc main_arg9) := by
  simp only [opsC, ops, List.drop_succ_cons, List.drop_zero, List.take_succ_cons, List.take_zero]; after_results_simp
theorem keepC_arg10 : StableHlo.after (opsC (F := Ideal)) W (Proc.devRef .tc main_arg10) = W (Proc.devRef .tc main_arg10) := by
  simp only [opsC, ops, List.drop_succ_cons, List.drop_zero, List.take_succ_cons, List.take_zero]; after_results_simp
theorem keepD_arg9 : StableHlo.after (opsD (F := Ideal)) W (Proc.devRef .tc main_arg9) = W (Proc.devRef .tc main_arg9) := by
  simp only [opsD, ops, List.drop_succ_cons, List.drop_zero, List.take_succ_cons, List.take_zero]; after_results_simp
theorem keepD_arg10 : StableHlo.after (opsD (F := Ideal)) W (Proc.devRef .tc main_arg10) = W (Proc.devRef .tc main_arg10) := by
  simp only [opsD, ops, List.drop_succ_cons, List.drop_zero, List.take_succ_cons, List.take_zero]; after_results_simp

end Values

/-! ## The whole run -/

/-- The reference's function of its eleven argument arrays: the perceptron, the hidden weights masked and transposed,
    the third hidden layer's columns reversed before the fourth. -/
def netOf (a0 : FVec Ideal S32768x64 .f32) (a1 : FVec Ideal S2048x64 .f32) (a2 : FVec Ideal S2048 .f32)
    (a3 : FVec Ideal S2048x2048 .f32) (a4 : FVec Ideal S2048 .f32) (a5 : FVec Ideal S2048x2048 .f32) (a6 : FVec Ideal S2048 .f32)
    (a7 : FVec Ideal S2048x2048 .f32) (a8 : FVec Ideal S2048 .f32) (a9 : FVec Ideal S3x2048 .f32) (a10 : FVec Ideal S3 .f32) :
    FVec Ideal S32768x3 .f32 :=
  lin (act (lin (act (Host.reverse [1] (lin (act (lin (act (lin a0 (transpose S64x2048 [1, 0] a1 transposes_S2048x64_S64x2048_1_0) (fun q => a2 (ix1 q)))) (transpose S2048x2048 [1, 0] (masked a3) transposes_S2048x2048_S2048x2048_1_0) (fun q => a4 (ix1 q)))) (transpose S2048x2048 [1, 0] (masked a5) transposes_S2048x2048_S2048x2048_1_0) (fun q => a6 (ix1 q))))) (transpose S2048x2048 [1, 0] (masked a7) transposes_S2048x2048_S2048x2048_1_0) (fun q => a8 (ix1 q)))) (transpose S2048x3 [1, 0] a9 transposes_S3x2048_S2048x3_1_0) (fun q => a10 (ix1 q))

/-- The result after all the operations, from the contents `V` at the start. -/
theorem ref_value (V : Valuation τ sig (Elt Ideal)) :
    StableHlo.after (ops (F := Ideal)) V (Proc.devRef .tc main_v50)
      = netOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold netOf
  rw [ops_split, StableHlo.after_append, StableHlo.after_append, StableHlo.after_append, StableHlo.after_append]
  rw [E_out, D_out, C_out, B_out, A_out]
  rw [keepD_arg9, keepD_arg10, keepC_v6, keepC_arg7, keepC_arg8, keepC_arg9, keepC_arg10,
    keepB_v6, keepB_arg5, keepB_arg6, keepB_arg7, keepB_arg8, keepB_arg9, keepB_arg10, A_mask,
    keepA_arg3, keepA_arg4, keepA_arg5, keepA_arg6, keepA_arg7, keepA_arg8, keepA_arg9, keepA_arg10]
  rfl

end Cert.ReferenceIdeal.RefValue

end
-- ==== Proof.Bridge.lean ====
/-
  The kernel's result is the reference's function of the same argument arrays.

  Row by row both are the five-layer perceptron. The arrays the kernel was given agree with the reference's entry by entry:
  the transposed weights are the same arrays (a change of format is the identity), a bias row is its bias vector, the
  padded output weights and bias hold the unpadded ones in their first three columns, and the output layer reads only the
  columns it is asked for. The one difference of arrangement is before the fourth layer: the reference reverses the
  columns of the third layer's result and multiplies by the masked weights, the kernel multiplies the unreversed result
  by the masked weights with their contracted coordinate reversed; the two sums are one sum re-indexed.
-/
import proofs.«164725_j36610301231756_2_alg».proof.Proof.KernelRun
import proofs.«164725_j36610301231756_2_alg».proof.Proof.RefValue

set_option maxRecDepth 65536

noncomputable section

namespace Cert.Bridge

open Idealize.ShloMosaic Idealize.ShloMosaic.TcCoe Idealize.SL.Sem Idealize.ShloMosaic.ValueIdx
open Cert.Spec Cert.LibLinearLayer Cert.MaskedW Cert.KernelIdeal.KValue Cert.KernelIdeal.Gen

/-- A bias vector made a one-row array, read along the row. -/
theorem bias_row {n : ℕ} (b : FVec Ideal ⟨1, ![n]⟩ .f32) (h : (⟨1, ![n]⟩ : Shape).ShapeCasts ⟨2, ![1, n]⟩) :
    (fun q : Fin n => shapeCast ⟨2, ![1, n]⟩ b h (ix2 (0 : Fin 1) q)) = fun q => b (ix1 q) :=
  funext fun q => shapeCast_a_1a_apply b h 0 q

/-- The ramp of an array with its columns reversed is the ramp read at the reversed column. -/
theorem act_reverse {a b : ℕ} (Y : FVec Ideal ⟨2, ![a, b]⟩ .f32) :
    act (Host.reverse [1] Y) = fun i : (⟨2, ![a, b]⟩ : Shape).Idx => act Y (ix2 (show Fin a from i 0) (show Fin b from i 1).rev) := by
  funext i
  show lk (Y _) = lk (Y _)
  congr 2
  funext ax
  match ax with
  | ⟨0, _⟩ => rfl
  | ⟨1, _⟩ => rfl

/-- Transposing after reversing the columns is reversing the rows of the transpose. -/
theorem transpose_reverse {a : ℕ} (M : FVec Ideal ⟨2, ![a, a]⟩ .f32) (h : (⟨2, ![a, a]⟩ : Shape).Transposes [1, 0] ⟨2, ![a, a]⟩) :
    transpose ⟨2, ![a, a]⟩ [1, 0] (Host.reverse [1] M) h
      = fun i : (⟨2, ![a, a]⟩ : Shape).Idx => transpose ⟨2, ![a, a]⟩ [1, 0] M h (ix2 (show Fin a from i 0).rev (show Fin a from i 1)) := by
  funext i
  obtain ⟨k, n, rfl⟩ : ∃ (k n : Fin a), i = ix2 k n := ⟨i 0, i 1, eq_ix2 i⟩
  rw [transpose_ix2_apply]
  show _ = transpose ⟨2, ![a, a]⟩ [1, 0] M h (ix2 k.rev n)
  rw [transpose_ix2_apply]
  show M _ = M _
  congr 1
  funext ax
  match ax with
  | ⟨0, _⟩ => rfl
  | ⟨1, _⟩ => rfl

variable (m : (ℓ : Loc Cert.KernelIdeal.nD Cert.KernelIdeal.τ Cert.KernelIdeal.sig) → Buf (Elt Ideal) ℓ)

set_option maxHeartbeats 2000000 in
/-- The kernel's result is the reference's function of the kernel's argument arrays. -/
theorem result_eq (c : Dev Cert.KernelIdeal.nD) :
    result m c = Cert.ReferenceIdeal.RefValue.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  funext j
  obtain ⟨R, q, rfl⟩ : ∃ (R : Fin 32768) (q : Fin 3), j = ix2 R q := ⟨j 0, j 1, eq_ix2 j⟩
  have hq := q.isLt
  rw [result_apply]
  unfold G28
  -- the output layer reads only column q: the padded weights and bias hold the unpadded ones there
  have hW : ∀ k : Fin 2048, Cert.KernelIdeal.Gen.V m c Cert.KernelIdeal.main_v18 (ix2 k (⟨q.val, by omega⟩ : Fin 128))
      = transpose Cert.KernelIdeal.S2048x3 [1, 0] (m ((c.tc : Thread Cert.KernelIdeal.nD Cert.KernelIdeal.τ).loc Cert.KernelIdeal.main_arg9)) Cert.KernelIdeal.Facts₀.transposes_S3x2048_S2048x3_1_0 (ix2 k q) := by
    intro k
    rw [V_v18]
    refine (truncf_apply (φ := .f32) (ψ := .bf16) _ Cert.KernelIdeal.Facts₀.bitsLt_bf16_f32 _).trans ?_
    exact Cert.LibScatterWindow.scatter_window_apply (m := 2048) (N := 128) (n := 3) (by omega) _ _ _ (fun _ => rfl) _ k q
  have hb : Cert.KernelIdeal.Gen.V m c Cert.KernelIdeal.main_v22 (ix2 (0 : Fin 1) (⟨q.val, by omega⟩ : Fin 128)) = (m ((c.tc : Thread Cert.KernelIdeal.nD Cert.KernelIdeal.τ).loc Cert.KernelIdeal.main_arg10)) (ix1 q) := by
    rw [V_v22]
    refine (Cert.LibScatterWindow.scatter_window_apply (m := 1) (N := 128) (n := 3) (by omega) _ _ _ (fun _ => rfl) _ 0 q).trans ?_
    exact shapeCast_a_1a_apply _ _ 0 q
  rw [net_cols (W4 := transpose Cert.KernelIdeal.S2048x3 [1, 0] (m ((c.tc : Thread Cert.KernelIdeal.nD Cert.KernelIdeal.τ).loc Cert.KernelIdeal.main_arg9)) Cert.KernelIdeal.Facts₀.transposes_S3x2048_S2048x3_1_0)
    (b4 := fun q => (m ((c.tc : Thread Cert.KernelIdeal.nD Cert.KernelIdeal.τ).loc Cert.KernelIdeal.main_arg10)) (ix1 q)) (q := q) (hW := hW) (hb := hb)]
  rw [V_v27, V_v7, V_v23, V_v9, V_v24, V_v11, V_v25, V_v13, V_v26, bias_row, bias_row, bias_row, bias_row]
  unfold net Cert.ReferenceIdeal.RefValue.netOf
  rw [act_reverse, lin_rev, transpose_reverse]

end Cert.Bridge

end
-- ==== Proof.lean ====
/- The proof of `Cert.Claim` (proofs.«164725_j36610301231756_2_alg».proof.Defs).

   The kernel and the reference both compute, row by row, a five-layer perceptron with a leaky ramp between the layers:
   an affine layer 64 → 2048, three affine layers 2048 → 2048 whose weights are masked to a triangle and transposed, and
   an affine layer 2048 → 3. At the ideal values a change of float format is the identity and sums may be taken in any
   grouping, so the two programs differ only in arrangement:
   · the kernel writes each hidden layer one block of 256 columns at a time and skips the chunks of the contraction whose
     weights the mask makes zero — a skipped chunk contributes 0, since 0 · x = 0 on every extended real (Proof/Body.lean);
   · the reference reverses the columns of the third layer's result, the kernel reverses the contracted coordinate of the
     fourth layer's weights instead — one sum re-indexed by the reversal (Proof/Spec.lean `lin_rev`);
   · the kernel pads the output layer to 128 columns with zeros and keeps the first three (Proof/Bridge.lean);
   · the kernel works on 128 blocks of 256 rows, and a block of rows of the perceptron is the perceptron of the block
     (Proof/Spec.lean `net_rows`, Proof/KernelValue.lean).
   No law used needs finiteness, so the precondition is never opened. The three frames are the generated frame runs (the
   reference's with its result dropped); the idealization ledger is empty. -/
import proofs.«164725_j36610301231756_2_alg».proof.Defs
import proofs.«164725_j36610301231756_2_alg».proof.Proof.Gen.Kernel
import proofs.«164725_j36610301231756_2_alg».proof.Proof.Gen.Kernel.Skeleton
import proofs.«164725_j36610301231756_2_alg».proof.Proof.Gen.Kernel.Launch
import proofs.«164725_j36610301231756_2_alg».proof.Proof.Gen.Kernel.Points
import proofs.«164725_j36610301231756_2_alg».proof.Proof.Gen.Kernel.Frame
import proofs.«164725_j36610301231756_2_alg».proof.Proof.Gen.KernelIdeal
import proofs.«164725_j36610301231756_2_alg».proof.Proof.Gen.KernelIdeal.Skeleton
import proofs.«164725_j36610301231756_2_alg».proof.Proof.Gen.KernelIdeal.Launch
import proofs.«164725_j36610301231756_2_alg».proof.Proof.Gen.KernelIdeal.Points
import proofs.«164725_j36610301231756_2_alg».proof.Proof.Gen.KernelIdeal.Frame
import proofs.«164725_j36610301231756_2_alg».proof.Proof.Gen.ReferenceIdeal
import proofs.«164725_j36610301231756_2_alg».proof.Proof.Gen.Pre_finite_inputs
import proofs.«164725_j36610301231756_2_alg».proof.Proof.RefRunPatched
import proofs.«164725_j36610301231756_2_alg».proof.Proof.KernelRun
import proofs.«164725_j36610301231756_2_alg».proof.Proof.RefValue
import proofs.«164725_j36610301231756_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments, the kernel's program ends with the perceptron of its arguments in its result
    (Proof/KernelRun.lean), the reference's with the same function of its own (Proof/RefValue.lean); the two are one
    function (Proof/Bridge.lean) of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨?_, (h c).2⟩)
    (Cert.ReferenceIdeal.ValueP.run (F := Ideal) m' ρ')
  show _ = Cert.KernelIdeal.KValue.result m c
  rw [(h c).1, Cert.ReferenceIdeal.RefValue.ref_value, Cert.Bridge.result_eq]
  obtain ⟨e0, e1, e2, e3, e4, e5, e6, e7, e8, e9, e10⟩ := hagree c
  show Cert.ReferenceIdeal.RefValue.netOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
